-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x6000x3 : Shape := ⟨3, ![4000, 6000, 3]⟩
abbrev S_ : Shape := ⟨0, ![]⟩

class Facts : Prop where
  bcast_S_S4000x6000x3 : S_.BroadcastsInDim S4000x6000x3 (![] : Fin 0 → Fin S4000x6000x3.rank)
  reducesTo_S4000x6000x3_S_d0_1_2 : S4000x6000x3.ReducesTo [0, 1, 2] S_
  h_S_ : 0 < S_.numel

variable [Facts]

def fn {F : FTy → Type} [FloatOps F] (main_arg0 : FVec F S4000x6000x3 .f32) : IVec S_ 1 :=
  let main_v0 : FVec F S4000x6000x3 .f32 := Host.absf main_arg0
  let main_cst : FVec F S_ .f32 := constant S_ .f32 0x7F800000#32
  let main_v1 : FVec F S4000x6000x3 .f32 := broadcastInDim S4000x6000x3 ![] bcast_S_S4000x6000x3 main_cst
  let main_v2 : IVec S4000x6000x3 1 := cmpf .olt main_v0 main_v1
  let main_c : IVec S_ 1 := constantI S_ 1 1#1
  let main_v3 : IVec S_ 1 := (fun x v => Host.reduce IntOp.andi x v reducesTo_S4000x6000x3_S_d0_1_2 h_S_) main_v2 main_c
  main_v3
-- ==== Kernel.lean ====
abbrev S4000x6000x3 : Shape := ⟨3, ![4000, 6000, 3]⟩
abbrev S4000x18000 : Shape := ⟨2, ![4000, 18000]⟩
abbrev S16x24x256x768 : Shape := ⟨4, ![16, 24, 256, 768]⟩
abbrev S1280x768 : Shape := ⟨2, ![1280, 768]⟩
abbrev S5x1x256x768 : Shape := ⟨4, ![5, 1, 256, 768]⟩
abbrev S5x256x768 : Shape := ⟨3, ![5, 256, 768]⟩
abbrev S256x6000x3 : Shape := ⟨3, ![256, 6000, 3]⟩
abbrev S_ : Shape := ⟨0, ![]⟩
abbrev S1x6000x3 : Shape := ⟨3, ![1, 6000, 3]⟩
abbrev S96x6000x3 : Shape := ⟨3, ![96, 6000, 3]⟩
abbrev S352x6000x3 : Shape := ⟨3, ![352, 6000, 3]⟩
abbrev S256x1x3 : Shape := ⟨3, ![256, 1, 3]⟩
abbrev S256x144x3 : Shape := ⟨3, ![256, 144, 3]⟩
abbrev S256x6144x3 : Shape := ⟨3, ![256, 6144, 3]⟩
abbrev S256x18432 : Shape := ⟨2, ![256, 18432]⟩
abbrev S256x768 : Shape := ⟨2, ![256, 768]⟩
abbrev S1x1x256x768 : Shape := ⟨4, ![1, 1, 256, 768]⟩
abbrev S3840x256x3 : Shape := ⟨3, ![3840, 256, 3]⟩
abbrev S3840x1x3 : Shape := ⟨3, ![3840, 1, 3]⟩
abbrev S3840x144x3 : Shape := ⟨3, ![3840, 144, 3]⟩
abbrev S3840x400x3 : Shape := ⟨3, ![3840, 400, 3]⟩
abbrev S3840x768 : Shape := ⟨2, ![3840, 768]⟩
abbrev S384x256x256x3 : Shape := ⟨4, ![384, 256, 256, 3]⟩

abbrev nBuf : Space → Nat
  | .hbm => 30
  | .vmem => 16
  | .smem => 0
  | _ => 0

abbrev bufTy : (tb : Table) → Fin (tcTables nBuf tb) → BufTy
  | .hbm, ⟨0, _⟩ => ⟨S4000x6000x3, .f32⟩
  | .hbm, ⟨1, _⟩ => ⟨S4000x18000, .f32⟩
  | .hbm, ⟨2, _⟩ => ⟨S16x24x256x768, .f32⟩
  | .hbm, ⟨3, _⟩ => ⟨S256x6000x3, .f32⟩
  | .hbm, ⟨4, _⟩ => ⟨S_, .i32⟩
  | .hbm, ⟨5, _⟩ => ⟨S1x6000x3, .f32⟩
  | .hbm, ⟨6, _⟩ => ⟨S1x6000x3, .f32⟩
  | .hbm, ⟨7, _⟩ => ⟨S96x6000x3, .f32⟩
  | .hbm, ⟨8, _⟩ => ⟨S96x6000x3, .f32⟩
  | .hbm, ⟨9, _⟩ => ⟨S352x6000x3, .f32⟩
  | .hbm, ⟨10, _⟩ => ⟨S256x6000x3, .f32⟩
  | .hbm, ⟨11, _⟩ => ⟨S_, .i32⟩
  | .hbm, ⟨12, _⟩ => ⟨S256x1x3, .f32⟩
  | .hbm, ⟨13, _⟩ => ⟨S256x1x3, .f32⟩
  | .hbm, ⟨14, _⟩ => ⟨S256x144x3, .f32⟩
  | .hbm, ⟨15, _⟩ => ⟨S256x144x3, .f32⟩
  | .hbm, ⟨16, _⟩ => ⟨S256x6144x3, .f32⟩
  | .hbm, ⟨17, _⟩ => ⟨S256x18432, .f32⟩
  | .hbm, ⟨18, _⟩ => ⟨S16x24x256x768, .f32⟩
  | .hbm, ⟨19, _⟩ => ⟨S3840x256x3, .f32⟩
  | .hbm, ⟨20, _⟩ => ⟨S_, .i32⟩
  | .hbm, ⟨21, _⟩ => ⟨S3840x1x3, .f32⟩
  | .hbm, ⟨22, _⟩ => ⟨S3840x1x3, .f32⟩
  | .hbm, ⟨23, _⟩ => ⟨S3840x144x3, .f32⟩
  | .hbm, ⟨24, _⟩ => ⟨S3840x144x3, .f32⟩
  | .hbm, ⟨25, _⟩ => ⟨S3840x400x3, .f32⟩
  | .hbm, ⟨26, _⟩ => ⟨S3840x256x3, .f32⟩
  | .hbm, ⟨27, _⟩ => ⟨S3840x768, .f32⟩
  | .hbm, ⟨28, _⟩ => ⟨S16x24x256x768, .f32⟩
  | .hbm, ⟨29, _⟩ => ⟨S384x256x256x3, .f32⟩
  | .local _ .vmem, ⟨0, _⟩ => ⟨S1280x768, .f32⟩
  | .local _ .vmem, ⟨1, _⟩ => ⟨S1280x768, .f32⟩
  | .local _ .vmem, ⟨2, _⟩ => ⟨S5x1x256x768, .f32⟩
  | .local _ .vmem, ⟨3, _⟩ => ⟨S5x1x256x768, .f32⟩
  | .local _ .vmem, ⟨4, _⟩ => ⟨S256x768, .f32⟩
  | .local _ .vmem, ⟨5, _⟩ => ⟨S256x768, .f32⟩
  | .local _ .vmem, ⟨6, _⟩ => ⟨S1x1x256x768, .f32⟩
  | .local _ .vmem, ⟨7, _⟩ => ⟨S1x1x256x768, .f32⟩
  | .local _ .vmem, ⟨8, _⟩ => ⟨S1x1x256x768, .f32⟩
  | .local _ .vmem, ⟨9, _⟩ => ⟨S1x1x256x768, .f32⟩
  | .local _ .vmem, ⟨10, _⟩ => ⟨S1280x768, .f32⟩
  | .local _ .vmem, ⟨11, _⟩ => ⟨S1280x768, .f32⟩
  | .local _ .vmem, ⟨12, _⟩ => ⟨S5x1x256x768, .f32⟩
  | .local _ .vmem, ⟨13, _⟩ => ⟨S5x1x256x768, .f32⟩
  | .local _ .vmem, ⟨14, _⟩ => ⟨S5x1x256x768, .f32⟩
  | .local _ .vmem, ⟨15, _⟩ => ⟨S5x1x256x768, .f32⟩
  | _, _ => ⟨S4000x6000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![3, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1280x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 4 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, arg0.toNat, c0_i32.toNat, c0_i32_0.toNat]

def cc1_transform_2 (i : grid1.Coords) : Fin 4 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, arg0.toNat, c0_i32.toNat, c0_i32_0.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc2_transform_2 (i : grid2.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

abbrev stage2_0 : Fin 2 → Memref sig .tc .vmem S1280x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5x1x256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5x1x256x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4000x6000x3_S4000x18000 : S4000x6000x3.ShapeCasts S4000x18000
  inb_S1280x768_S1280x768_0_0 : ∀ a, (![0, 0] : Fin 2 → Nat) a + S1280x768.size a ≤ S1280x768.size a
  h_S1280x768 : 0 < S1280x768.numel
  shapeCasts_S1280x768_S1280x768 : S1280x768.ShapeCasts S1280x768
  shapeCasts_S1280x768_S5x256x768 : S1280x768.ShapeCasts S5x256x768
  inb_S5x1x256x768_S5x1x256x768_0_0_0_0 : ∀ a, (![0, 0, 0, 0] : Fin 4 → Nat) a + S5x1x256x768.size a ≤ S5x1x256x768.size a
  h_S5x1x256x768 : 0 < S5x1x256x768.numel
  shapeCasts_S5x1x256x768_S5x256x768 : S5x1x256x768.ShapeCasts S5x256x768
  shapeCasts_S5x256x768_S5x1x256x768 : S5x256x768.ShapeCasts S5x1x256x768
  slices_S4000x6000x3_S256x6000x3_3744_0_0 : S4000x6000x3.Slices ![3744, 0, 0] S256x6000x3
  slices_S256x6000x3_S1x6000x3_0_0_0 : S256x6000x3.Slices ![0, 0, 0] S1x6000x3
  slices_S256x6000x3_S1x6000x3_255_0_0 : S256x6000x3.Slices ![255, 0, 0] S1x6000x3
  slices_S256x6000x3_S96x6000x3_159_0_0 : S256x6000x3.Slices ![159, 0, 0] S96x6000x3
  concatenates_S256x6000x3_S96x6000x3_S352x6000x3_d0 : Shape.Concatenates [S256x6000x3, S96x6000x3] S352x6000x3 0
  slices_S352x6000x3_S256x6000x3_96_0_0 : S352x6000x3.Slices ![96, 0, 0] S256x6000x3
  slices_S256x6000x3_S256x1x3_0_0_0 : S256x6000x3.Slices ![0, 0, 0] S256x1x3
  slices_S256x6000x3_S256x1x3_0_5999_0 : S256x6000x3.Slices ![0, 5999, 0] S256x1x3
  slices_S256x6000x3_S256x144x3_0_5855_0 : S256x6000x3.Slices ![0, 5855, 0] S256x144x3
  concatenates_S256x6000x3_S256x144x3_S256x6144x3_d1 : Shape.Concatenates [S256x6000x3, S256x144x3] S256x6144x3 1
  shapeCasts_S256x6144x3_S256x18432 : S256x6144x3.ShapeCasts S256x18432
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x1x256x768_S1x1x256x768_0_0_0_0 : ∀ a, (![0, 0, 0, 0] : Fin 4 → Nat) a + S1x1x256x768.size a ≤ S1x1x256x768.size a
  h_S1x1x256x768 : 0 < S1x1x256x768.numel
  shapeCasts_S1x1x256x768_S256x768 : S1x1x256x768.ShapeCasts S256x768
  shapeCasts_S256x768_S1x1x256x768 : S256x768.ShapeCasts S1x1x256x768
  slices_S4000x6000x3_S3840x256x3_0_5744_0 : S4000x6000x3.Slices ![0, 5744, 0] S3840x256x3
  slices_S3840x256x3_S3840x1x3_0_0_0 : S3840x256x3.Slices ![0, 0, 0] S3840x1x3
  slices_S3840x256x3_S3840x1x3_0_255_0 : S3840x256x3.Slices ![0, 255, 0] S3840x1x3
  slices_S3840x256x3_S3840x144x3_0_111_0 : S3840x256x3.Slices ![0, 111, 0] S3840x144x3
  concatenates_S3840x256x3_S3840x144x3_S3840x400x3_d1 : Shape.Concatenates [S3840x256x3, S3840x144x3] S3840x400x3 1
  slices_S3840x400x3_S3840x256x3_0_144_0 : S3840x400x3.Slices ![0, 144, 0] S3840x256x3
  shapeCasts_S3840x256x3_S3840x768 : S3840x256x3.ShapeCasts S3840x768
  shapeCasts_S16x24x256x768_S384x256x256x3 : S16x24x256x768.ShapeCasts S384x256x256x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1280x768.size a < S4000x18000.size a
  hwx0_0 : ∀ i : grid0.Coords, EltTy.bits .f32 = 32 ∨ (Rect.unit (s := S4000x18000) (fun a => cc0_transform_0 i a * S1280x768.size a) (fun a => (Pipeline.Clip.of (cc0_transform_0 i a) (S1280x768.size a) (S4000x18000.size a)).extent (S1280x768.size a)) fun a => Pipeline.Clip.inb (Pipeline.Clip.ok_of (hstart0_0 i a))).WholeWords (EltTy.packing .f32)
  hwxs0_0 : ∀ i : grid0.Coords, EltTy.bits .f32 = 32 ∨ (Rect.unit (s := S1280x768) (fun _ => 0) (fun a => (Pipeline.Clip.of (cc0_transform_0 i a) (S1280x768.size a) (S4000x18000.size a)).extent (S1280x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S5x1x256x768.size a < S16x24x256x768.size a
  hwx0_1 : ∀ i : grid0.Coords, EltTy.bits .f32 = 32 ∨ (Rect.unit (s := S16x24x256x768) (fun a => cc0_transform_1 i a * S5x1x256x768.size a) (fun a => (Pipeline.Clip.of (cc0_transform_1 i a) (S5x1x256x768.size a) (S16x24x256x768.size a)).extent (S5x1x256x768.size a)) fun a => Pipeline.Clip.inb (Pipeline.Clip.ok_of (hstart0_1 i a))).WholeWords (EltTy.packing .f32)
  hwxs0_1 : ∀ i : grid0.Coords, EltTy.bits .f32 = 32 ∨ (Rect.unit (s := S5x1x256x768) (fun _ => 0) (fun a => (Pipeline.Clip.of (cc0_transform_1 i a) (S5x1x256x768.size a) (S16x24x256x768.size a)).extent (S5x1x256x768.size a)) fun a => (Nat.zero_add _).trans_le (Pipeline.Clip.extent_le (Pipeline.Clip.ok_of (hstart0_1 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S256x18432.size a
  hwx1_0 : ∀ i : grid1.Coords, EltTy.bits .f32 = 32 ∨ (Rect.block (s := S256x18432) S256x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256x768.size a ≤ S16x24x256x768.size a
  hwx1_1 : ∀ i : grid1.Coords, EltTy.bits .f32 = 32 ∨ (Rect.block (s := S16x24x256x768) S1x1x256x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x768.size a ≤ S16x24x256x768.size a
  hwx1_2 : ∀ i : grid1.Coords, EltTy.bits .f32 = 32 ∨ (Rect.block (s := S16x24x256x768) S1x1x256x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x768.size a ≤ S3840x768.size a
  hwx2_0 : ∀ i : grid2.Coords, EltTy.bits .f32 = 32 ∨ (Rect.block (s := S3840x768) S1280x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S5x1x256x768.size a < S16x24x256x768.size a
  hwx2_1 : ∀ i : grid2.Coords, EltTy.bits .f32 = 32 ∨ (Rect.unit (s := S16x24x256x768) (fun a => cc2_transform_1 i a * S5x1x256x768.size a) (fun a => (Pipeline.Clip.of (cc2_transform_1 i a) (S5x1x256x768.size a) (S16x24x256x768.size a)).extent (S5x1x256x768.size a)) fun a => Pipeline.Clip.inb (Pipeline.Clip.ok_of (hstart2_1 i a))).WholeWords (EltTy.packing .f32)
  hwxs2_1 : ∀ i : grid2.Coords, EltTy.bits .f32 = 32 ∨ (Rect.unit (s := S5x1x256x768) (fun _ => 0) (fun a => (Pipeline.Clip.of (cc2_transform_1 i a) (S5x1x256x768.size a) (S16x24x256x768.size a)).extent (S5x1x256x768.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S5x1x256x768.size a < S16x24x256x768.size a
  hwx2_2 : ∀ i : grid2.Coords, EltTy.bits .f32 = 32 ∨ (Rect.unit (s := S16x24x256x768) (fun a => cc2_transform_2 i a * S5x1x256x768.size a) (fun a => (Pipeline.Clip.of (cc2_transform_2 i a) (S5x1x256x768.size a) (S16x24x256x768.size a)).extent (S5x1x256x768.size a)) fun a => Pipeline.Clip.inb (Pipeline.Clip.ok_of (hstart2_2 i a))).WholeWords (EltTy.packing .f32)
  hwxs2_2 : ∀ i : grid2.Coords, EltTy.bits .f32 = 32 ∨ (Rect.unit (s := S5x1x256x768) (fun _ => 0) (fun a => (Pipeline.Clip.of (cc2_transform_2 i a) (S5x1x256x768.size a) (S16x24x256x768.size a)).extent (S5x1x256x768.size a)) fun a => (Nat.zero_add _).trans_le (Pipeline.Clip.extent_le (Pipeline.Clip.ok_of (hstart2_2 i a)))).WholeWords (EltTy.packing .f32)

variable [Facts₀]

abbrev win0_0 : Pipeline.Window sig grid0 :=
  Pipeline.Window.ofSpecClip (Memref.whole main_v0) S1280x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S5x1x256x768.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v6) S256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x256x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S1280x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v7) S5x1x256x768.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v12) S5x1x256x768.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  halias1_2 : Pipeline.Aliased win1 1 2
  halias2_2 : Pipeline.Aliased win2 1 2

variable [Facts]
-- ==== ReferenceIdeal.lean ====
abbrev S4000x6000x3 : Shape := ⟨3, ![4000, 6000, 3]⟩
abbrev S_ : Shape := ⟨0, ![]⟩
abbrev S1x6000x3 : Shape := ⟨3, ![1, 6000, 3]⟩
abbrev S96x6000x3 : Shape := ⟨3, ![96, 6000, 3]⟩
abbrev S4096x6000x3 : Shape := ⟨3, ![4096, 6000, 3]⟩
abbrev S4096x1x3 : Shape := ⟨3, ![4096, 1, 3]⟩
abbrev S4096x144x3 : Shape := ⟨3, ![4096, 144, 3]⟩
abbrev S4096x6144x3 : Shape := ⟨3, ![4096, 6144, 3]⟩
abbrev S16x256x24x256x3 : Shape := ⟨5, ![16, 256, 24, 256, 3]⟩
abbrev S16x24x256x256x3 : Shape := ⟨5, ![16, 24, 256, 256, 3]⟩
abbrev S384x256x256x3 : Shape := ⟨4, ![384, 256, 256, 3]⟩

abbrev nBuf : Space → Nat
  | .hbm => 18
  | .vmem => 0
  | .smem => 0
  | _ => 0

abbrev bufTy : (tb : Table) → Fin (tcTables nBuf tb) → BufTy
  | .hbm, ⟨0, _⟩ => ⟨S4000x6000x3, .f32⟩
  | .hbm, ⟨1, _⟩ => ⟨S_, .i32⟩
  | .hbm, ⟨2, _⟩ => ⟨S1x6000x3, .f32⟩
  | .hbm, ⟨3, _⟩ => ⟨S1x6000x3, .f32⟩
  | .hbm, ⟨4, _⟩ => ⟨S96x6000x3, .f32⟩
  | .hbm, ⟨5, _⟩ => ⟨S96x6000x3, .f32⟩
  | .hbm, ⟨6, _⟩ => ⟨S4096x6000x3, .f32⟩
  | .hbm, ⟨7, _⟩ => ⟨S4096x1x3, .f32⟩
  | .hbm, ⟨8, _⟩ => ⟨S4096x1x3, .f32⟩
  | .hbm, ⟨9, _⟩ => ⟨S4096x144x3, .f32⟩
  | .hbm, ⟨10, _⟩ => ⟨S4096x144x3, .f32⟩
  | .hbm, ⟨11, _⟩ => ⟨S4096x6144x3, .f32⟩
  | .hbm, ⟨12, _⟩ => ⟨S_, .f32⟩
  | .hbm, ⟨13, _⟩ => ⟨S4096x6144x3, .f32⟩
  | .hbm, ⟨14, _⟩ => ⟨S4096x6144x3, .f32⟩
  | .hbm, ⟨15, _⟩ => ⟨S16x256x24x256x3, .f32⟩
  | .hbm, ⟨16, _⟩ => ⟨S16x24x256x256x3, .f32⟩
  | .hbm, ⟨17, _⟩ => ⟨S384x256x256x3, .f32⟩
  | _, _ => ⟨S4000x6000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  slices_S4000x6000x3_S1x6000x3_0_0_0 : S4000x6000x3.Slices ![0, 0, 0] S1x6000x3
  slices_S4000x6000x3_S1x6000x3_3999_0_0 : S4000x6000x3.Slices ![3999, 0, 0] S1x6000x3
  slices_S4000x6000x3_S96x6000x3_3903_0_0 : S4000x6000x3.Slices ![3903, 0, 0] S96x6000x3
  concatenates_S4000x6000x3_S96x6000x3_S4096x6000x3_d0 : Shape.Concatenates [S4000x6000x3, S96x6000x3] S4096x6000x3 0
  slices_S4096x6000x3_S4096x1x3_0_0_0 : S4096x6000x3.Slices ![0, 0, 0] S4096x1x3
  slices_S4096x6000x3_S4096x1x3_0_5999_0 : S4096x6000x3.Slices ![0, 5999, 0] S4096x1x3
  slices_S4096x6000x3_S4096x144x3_0_5855_0 : S4096x6000x3.Slices ![0, 5855, 0] S4096x144x3
  concatenates_S4096x6000x3_S4096x144x3_S4096x6144x3_d1 : Shape.Concatenates [S4096x6000x3, S4096x144x3] S4096x6144x3 1
  bcast_S_S4096x6144x3 : S_.BroadcastsInDim S4096x6144x3 (![] : Fin 0 → Fin S4096x6144x3.rank)
  shapeCasts_S4096x6144x3_S16x256x24x256x3 : S4096x6144x3.ShapeCasts S16x256x24x256x3
  transposes_S16x256x24x256x3_S16x24x256x256x3_0_2_1_3_4 : S16x256x24x256x3.Transposes [0, 2, 1, 3, 4] S16x24x256x256x3
  shapeCasts_S16x24x256x256x3_S384x256x256x3 : S16x24x256x256x3.ShapeCasts S384x256x256x3

variable [Facts₀]

class Facts : Prop extends Facts₀ where

variable [Facts]
-- ==== Proof.KBody0.lean ====
/-
  The three kernels of `Kernel`, each run once on whole staging buffers, and what each pipeline's staging buffers
  hold after the body at every grid point.

  Each body loads its input block whole, multiplies every entry by one scalar constant, re-lays the product
  (1280 × 768 as 5 × 1 × 256 × 768, or 256 × 768 as 1 × 1 × 256 × 768) and stores it whole into the output block; it
  also loads the output block, a value nothing uses. The first and the third pipeline have windows whose block
  shape does not divide the array (4000 rows by 1280, 18000 columns by 768, 16 patch rows by 5), so a block
  there is described only on its part inside the array; on their grids no block in fact reaches past the array
  (3 × 1280 ≤ 4000, 23 × 768 ≤ 18000, 3 × 5 ≤ 16), which is decided over the grid once and makes the part
  inside the array the whole block.
-/
import proofs.«112207_j51110110823149_2_alg».proof.Proof.Gen.Kernel.Launch
import proofs.«112207_j51110110823149_2_alg».proof.Proof.Gen.Kernel.Skeleton
import proofs.«112207_j51110110823149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when a pipeline is entered
variable (V : (c : Dev nD) → (b : Ref sig .tc) → Buf (Elt F) ((c : Thread nD τ).loc b))

/-! # The first pipeline: the interior patches -/

/-- Window `w`'s block at point `t` (its part inside the array), read off the array as the pipeline finds it. -/
def rd0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t` as a whole 1280 × 768 block. -/
def in0 (c : Dev nD) (t : Fin cfg0.N) : S1280x768.Idx → Elt F .f32 :=
  win0_0.fill (grid0.coords t) (fun _ => Scalar.ofBits .f32 0#32) (rd0 V c 0 t)

/-- No block of the input window reaches past the array at a point of the grid. -/
theorem noclip0_0 : ∀ (t : Fin cfg0.N) (a : Fin 2), win0_0.clip (grid0.coords t) a = none :=
  (by decide +kernel : ∀ (t : Fin grid0.N) (a : Fin 2), win0_0.clip (grid0.coords t) a = none)

/-- So what fills the block outside its part inside the array is never seen. -/
theorem fill0_0_indep {α : Type} (t : Fin cfg0.N) (d d' : win0_0.block.Idx → α) (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by have := (j a).isLt; unfold Window.xsize; rw [noclip0_0 t a]; exact this
  unfold Window.fill; rw [dif_pos hm, dif_pos hm]

/-- The output window is not fetched. -/
theorem nofetch0_1 : ∀ t : Fin cfg0.N, (cfg0.win 1).fetch t = false :=
  (by decide +kernel : ∀ t : Fin grid0.N, win0_1.fetch t = false)

abbrev r0_in : Rect S1280x768 := Rect.unit (s := S1280x768) ![0, 0] S1280x768.size inb_S1280x768_S1280x768_0_0
abbrev r0_out : Rect S5x1x256x768 := Rect.unit (s := S5x1x256x768) ![0, 0, 0, 0] S5x1x256x768.size inb_S5x1x256x768_S5x1x256x768_0_0_0_0

/-- The output block after the body, from the input block: its one store. -/
def out0_1 (x0 : Vec F S1280x768 .f32) : Vec F S5x1x256x768 .f32 :=
  View.canon [⟨r0_out, k0_pay1 (View.ld x0 r0_in)⟩]

theorem cover0_1 (p0 : Vec F S5x1x256x768 .f32) (y : S5x1x256x768.Idx) :
    ∃ pc ∈ ([⟨r0_out, p0⟩] : List (View.Piece (Elt F) S5x1x256x768 .f32)), y ∈ pc.1.set :=
  View.cover_of_tiled [⟨r0_out, p0⟩] S5x1x256x768.size (by rfl) y

set_option maxHeartbeats 1000000 in
/-- The body on whole staging buffers: the input's keeps its contents, the output's ends at `out0_1` of them. -/
theorem sound_kernel0 (c : Dev nD) (E : Set ℕ) (i : grid0.Coords) (arg0 : Memref sig .tc .vmem S1280x768 .f32) (harg0 : arg0.IsWhole)
    (arg1 : Memref sig .tc .vmem S5x1x256x768 .f32) (harg1 : arg1.IsWhole)
    (x0 : Vec F S1280x768 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__interior_kernel i arg0 harg0 arg1 harg1) K := by
  simp only [cc0__interior_kernel_eq_skeleton]; unfold cc0__interior_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- What the first pipeline's staging buffers hold after the body at each point: the input's its block, the
    output's the body's result of it; the arrays as the pipeline finds them. -/
def dat0 (c : Dev nD) : Dat τ (Elt F) Unit ℕ (UR sig nD τ) ℕ cfg0 c where
  A w := V c (Pipeline.arrRef spec0 w)
  after w t := match w with
    | ⟨0, _⟩ => in0 V c t
    | ⟨1, _⟩ => out0_1 (in0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = in0 V c t := by dsimp only [dat0]
theorem after0_1 (c : Dev nD) (t : Fin cfg0.N) : (dat0 V c).after 1 t = out0_1 (in0 V c t) := by dsimp only [dat0]

/-- The input's buffer, just fetched, holds the block on its part inside the array. -/
theorem before0_0 (c : Dev nD) (t : Fin cfg0.N) (d) :
    (dat0 V c).before 0 t d = win0_0.fill (grid0.coords t) d (rd0 V c 0 t) := by
  unfold Dat.before; rw [if_pos (fetch0_0 t)]
  unfold Dat.fetched Dat.blockOf rd0; rw [A_eq0]

/-- The output's buffer holds contents nothing names. -/
theorem before0_1 (c : Dev nD) (t : Fin cfg0.N) (d) : (dat0 V c).before 1 t d = d := by
  unfold Dat.before
  rw [if_neg (by rw [nofetch0_1 t]; exact Bool.false_ne_true)]
  by_cases h0 : t.val = 0
  · rw [if_pos h0]
  · rw [if_neg h0]; exact if_pos (flush0_1 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (win0_0.fill (grid0.coords t) d0 (rd0 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win0_0.cut (grid0.coords t) (in0 V c t) = rd0 V c 0 t from win0_0.cut_fill _ _ _]
    iexact H0
  · iexists out0_1 (in0 V c t)
    rw [win0_1.fill_cut, show in0 V c t = win0_0.fill (grid0.coords t) d0 (rd0 V c 0 t) from fill0_0_indep t _ _ _]
    iexact H1

theorem body_obligation0 (c : Dev nD) : BodyObligationLoose (dat0 (F := F) V c) (defs₀ (F := F)) Variants.none () Set.univ := fun t => by
  rw [bigSep_W0, bigSep_W0]
  exact sound_body0 V c t

end Cert.Kernel.Hand

end
-- ==== Proof.KBody1.lean ====
/-
  The second kernel of `Kernel` — the last row of patches — run once on whole staging buffers, and what its
  pipeline's staging buffers hold after the body at every grid point.

  The body loads its 256 × 768 input block whole, multiplies every entry by one scalar constant, re-lays the product
  as 1 × 1 × 256 × 768 and stores it whole into the output block; it also loads the output block, a value nothing
  uses, and never touches the block of the array the output is a copy of. Every block lies inside its array.
-/
import proofs.«112207_j51110110823149_2_alg».proof.Proof.Gen.Kernel.Launch
import proofs.«112207_j51110110823149_2_alg».proof.Proof.Gen.Kernel.Skeleton
import proofs.«112207_j51110110823149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! # The second pipeline: the last row of patches -/

/-- Window `w`'s block at point `t`, read off the array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any staging contents whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_in : Rect S256x768 := Rect.unit (s := S256x768) ![0, 0] S256x768.size inb_S256x768_S256x768_0_0
abbrev r1_out : Rect S1x1x256x768 := Rect.unit (s := S1x1x256x768) ![0, 0, 0, 0] S1x1x256x768.size inb_S1x1x256x768_S1x1x256x768_0_0_0_0

/-- The output block after the body, from the input block: its one store. -/
def out1_2 (x0 : Vec F S256x768 .f32) : Vec F S1x1x256x768 .f32 :=
  View.canon [⟨r1_out, k1_pay1 (View.ld x0 r1_in)⟩]

theorem cover1_2 (p0 : Vec F S1x1x256x768 .f32) (y : S1x1x256x768.Idx) :
    ∃ pc ∈ ([⟨r1_out, p0⟩] : List (View.Piece (Elt F) S1x1x256x768 .f32)), y ∈ pc.1.set :=
  View.cover_of_tiled [⟨r1_out, p0⟩] S1x1x256x768.size (by rfl) y

set_option maxHeartbeats 1000000 in
/-- The body on whole staging buffers: the input's keeps its contents, the output's ends at `out1_2` of them; the
    third buffer is not touched. -/
theorem sound_kernel1 (c : Dev nD) (E : Set ℕ) (i : grid1.Coords) (arg0 : Memref sig .tc .vmem S256x768 .f32) (harg0 : arg0.IsWhole)
    (arg1 : Memref sig .tc .vmem S1x1x256x768 .f32) (harg1 : arg1.IsWhole)
    (arg2 : Memref sig .tc .vmem S1x1x256x768 .f32) (harg2 : arg2.IsWhole)
    (x0 : Vec F S256x768 .f32) (K : PUnit → sProp 𝕄) :
    iprop(owns (c : Thread nD τ) arg0 fullShare x0 ∗ (∃ d, owns (c : Thread nD τ) arg2 fullShare d)
        ∗ (iprop(owns (c : Thread nD τ) arg0 fullShare x0 ∗ owns (c : Thread nD τ) arg2 fullShare (out1_2 x0)) -∗ K ⟨⟩))
      ⊢ wp frame (wpE (defs₀ (F := F)) Variants.none c none) E (cc1__row_boundary_kernel i arg0 harg0 arg1 harg1 arg2 harg2) K := by
  simp only [cc1__row_boundary_kernel_eq_skeleton]; unfold cc1__row_boundary_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_2 _)

/-- What the second pipeline's staging buffers hold after the body at each point: each input's its block, the
    output's the body's result of the first input's block; the arrays as the pipeline finds them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H2]; · iexists _; iexact H2
  iintro ⟨H0, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The third kernel of `Kernel` — the last column of patches — run once on whole staging buffers, and what its
  pipeline's staging buffers hold after the body at every grid point.

  The body loads its 1280 × 768 input block whole, multiplies every entry by one scalar constant, re-lays the product
  as 5 × 1 × 256 × 768 and stores it whole into the output block; it also loads the output block, a value nothing
  uses, and never touches the block of the array the output is a copy of. The input's blocks lie inside its array;
  the other two windows' block shape does not divide theirs (16 patch rows by 5), so their buffers are described on
  the block's part inside the array only.
-/
import proofs.«112207_j51110110823149_2_alg».proof.Proof.Gen.Kernel.Launch
import proofs.«112207_j51110110823149_2_alg».proof.Proof.Gen.Kernel.Skeleton
import proofs.«112207_j51110110823149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! # The third pipeline: the last column of patches -/

/-- Window `w`'s block at point `t` (its part inside the array), read off the array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's current buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of the copied array at point `t` as a whole 5 × 1 × 256 × 768 block. -/
def prev2 (c : Dev nD) (t : Fin cfg2.N) : S5x1x256x768.Idx → Elt F .f32 :=
  win2_1.fill (grid2.coords t) (fun _ => Scalar.ofBits .f32 0#32) (iblk2 V c 1 t)

/-- The output window is not fetched. -/
theorem nofetch2_2 : ∀ t : Fin cfg2.N, (cfg2.win 2).fetch t = false :=
  (by decide +kernel : ∀ t : Fin grid2.N, win2_2.fetch t = false)

abbrev r2_in : Rect S1280x768 := Rect.unit (s := S1280x768) ![0, 0] S1280x768.size inb_S1280x768_S1280x768_0_0
abbrev r2_out : Rect S5x1x256x768 := Rect.unit (s := S5x1x256x768) ![0, 0, 0, 0] S5x1x256x768.size inb_S5x1x256x768_S5x1x256x768_0_0_0_0

/-- The output block after the body, from the input block: its one store. -/
def out2_2 (x0 : Vec F S1280x768 .f32) : Vec F S5x1x256x768 .f32 :=
  View.canon [⟨r2_out, k2_pay1 (View.ld x0 r2_in)⟩]

theorem cover2_2 (p0 : Vec F S5x1x256x768 .f32) (y : S5x1x256x768.Idx) :
    ∃ pc ∈ ([⟨r2_out, p0⟩] : List (View.Piece (Elt F) S5x1x256x768 .f32)), y ∈ pc.1.set :=
  View.cover_of_tiled [⟨r2_out, p0⟩] S5x1x256x768.size (by rfl) y

set_option maxHeartbeats 1000000 in
/-- The body on whole staging buffers: the input's keeps its contents, the output's ends at `out2_2` of them; the
    third buffer is not touched. -/
theorem sound_kernel2 (c : Dev nD) (E : Set ℕ) (i : grid2.Coords) (arg0 : Memref sig .tc .vmem S1280x768 .f32) (harg0 : arg0.IsWhole)
    (arg1 : Memref sig .tc .vmem S5x1x256x768 .f32) (harg1 : arg1.IsWhole)
    (arg2 : Memref sig .tc .vmem S5x1x256x768 .f32) (harg2 : arg2.IsWhole)
    (x0 : Vec F S1280x768 .f32) (K : PUnit → sProp 𝕄) :
    iprop(owns (c : Thread nD τ) arg0 fullShare x0 ∗ (∃ d, owns (c : Thread nD τ) arg2 fullShare d)
        ∗ (iprop(owns (c : Thread nD τ) arg0 fullShare x0 ∗ owns (c : Thread nD τ) arg2 fullShare (out2_2 x0)) -∗ K ⟨⟩))
      ⊢ wp frame (wpE (defs₀ (F := F)) Variants.none c none) E (cc2__col_boundary_kernel i arg0 harg0 arg1 harg1 arg2 harg2) K := by
  simp only [cc2__col_boundary_kernel_eq_skeleton]; unfold cc2__col_boundary_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_2 _)

/-- What the third pipeline's staging buffers hold after the body at each point: the input's its block, the copied
    array's its block, the output's the body's result of the input's block; the arrays as the pipeline finds them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => prev2 V c t
    | ⟨2, _⟩ => out2_2 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = prev2 V c t := by dsimp only [dat2]
theorem after2_2 (c : Dev nD) (t : Fin cfg2.N) : (dat2 V c).after 2 t = out2_2 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- The copied array's buffer, just fetched, holds the block on its part inside the array. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]

/-- The output's buffer holds contents nothing names. -/
theorem before2_2 (c : Dev nD) (t : Fin cfg2.N) (d) : (dat2 V c).before 2 t d = d := by
  unfold Dat.before
  rw [if_neg (by rw [nofetch2_2 t]; exact Bool.false_ne_true)]
  by_cases h0 : t.val = 0
  · rw [if_pos h0]
  · rw [if_neg h0]; exact if_pos (flush2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) _)
  isplitl [H0]; · iexact H0
  isplitl [H2]; · iexists _; iexact H2
  iintro ⟨H0, H2⟩
  isplitl [HΦ]; · iexact HΦ
  isplitl [Ho]; · iexact Ho
  isplitl [H0]; · iexact H0
  isplitl [H1]
  · iexists d1
    rw [show win2_1.cut (grid2.coords t) (prev2 V c t) = iblk2 V c 1 t from win2_1.cut_fill _ _ _]
    iexact H1
  · iexists out2_2 (iblk2 V c 0 t)
    rw [win2_2.fill_cut]
    iexact H2

theorem body_obligation2 (c : Dev nD) : BodyObligationLoose (dat2 (F := F) V c) (defs₀ (F := F)) Variants.none () Set.univ := fun t => by
  rw [bigSep_W2, bigSep_W2]
  exact sound_body2 V c t

end Cert.Kernel.Hand

end
-- ==== Proof.KRun.lean ====
/-
  The run of `Kernel`'s @main: thirteen items — ten stretches of host operations and three pipelines — chained
  from the launch memory to the return, with every unscoped buffer's contents named at each boundary.

  A stretch of host operations leaves each buffer at the operations' pure result of what the stretch found; a
  pipeline leaves its arrays at what its write-backs leave (the inputs as entered, the output with every written
  block overwritten) and every other buffer as entered. Every weakly fair execution terminates, nothing faults,
  and the final memory holds each unscoped buffer at the last boundary's contents. The image is written by no
  item, so it ends as launched.
-/
import proofs.«112207_j51110110823149_2_alg».proof.Proof.KBody0
import proofs.«112207_j51110110823149_2_alg».proof.Proof.KBody1
import proofs.«112207_j51110110823149_2_alg».proof.Proof.KBody2
import proofs.«112207_j51110110823149_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At pipeline 0's exit: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev U7 : (c : Dev nD) → (b : Ref sig .tc) → Buf (Elt F) ((c : Thread nD τ).loc b) := fun c b => W7 m ρ c b

/-- At pipeline 1's exit: its arrays at what its write-backs leave, every other buffer as entered. -/
def W8 (c : Dev nD) : Valuation τ sig (Elt F) :=
  Pipeline.withArrays spec1 c (W7 m ρ c) fun w => (dat1 (U7 m ρ) c).arrAt w cfg1.N
theorem W8_arr (c : Dev nD) (w : Fin cfg1.W) :
    W8 m ρ c (Proc.devRef .tc (Pipeline.arrRef spec1 w)) = (dat1 (U7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev U8 : (c : Dev nD) → (b : Ref sig .tc) → Buf (Elt F) ((c : Thread nD τ).loc b) := fun c b => W8 m ρ c b
theorem hF1 (c : Dev nD) (w : Fin cfg1.W) : (dat1 (U7 m ρ) c).arrAt w cfg1.N = U8 m ρ c (Pipeline.arrRef spec1 w) :=
  (W8_arr m ρ c w).symm
theorem hrest1 (c : Dev nD) : ∀ b, b ∉ Finset.univ.image (Pipeline.arrRef spec1) → U8 m ρ c b = U7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev U11 : (c : Dev nD) → (b : Ref sig .tc) → Buf (Elt F) ((c : Thread nD τ).loc b) := fun c b => W11 m ρ c b

/-- At pipeline 2's exit: its arrays at what its write-backs leave, every other buffer as entered. -/
def W12 (c : Dev nD) : Valuation τ sig (Elt F) :=
  Pipeline.withArrays spec2 c (W11 m ρ c) fun w => (dat2 (U11 m ρ) c).arrAt w cfg2.N
theorem W12_arr (c : Dev nD) (w : Fin cfg2.W) :
    W12 m ρ c (Proc.devRef .tc (Pipeline.arrRef spec2 w)) = (dat2 (U11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev U12 : (c : Dev nD) → (b : Ref sig .tc) → Buf (Elt F) ((c : Thread nD τ).loc b) := fun c b => W12 m ρ c b
theorem hF2 (c : Dev nD) (w : Fin cfg2.W) : (dat2 (U11 m ρ) c).arrAt w cfg2.N = U12 m ρ c (Pipeline.arrRef spec2 w) :=
  (W12_arr m ρ c w).symm
theorem hrest2 (c : Dev nD) : ∀ b, b ∉ Finset.univ.image (Pipeline.arrRef spec2) → U12 m ρ c b = U11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)

/-! ## The image ends as launched -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps3 _ hostOps3_writes (by decide)
    _ = W11 m ρ c (Proc.devRef .tc main_arg0) := W12_of_ne m ρ c main_arg0 (by decide)
    _ = W10 m ρ c (Proc.devRef .tc main_arg0) := StableHlo.after_of_writes_sub hostOps2_2 _ hostOps2_2_writes (by decide)
    _ = W9 m ρ c (Proc.devRef .tc main_arg0) := StableHlo.after_of_writes_sub hostOps2_1 _ hostOps2_1_writes (by decide)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-! ## The staging contents of every pipeline, and what rides beside the buffers -/

/-- Every pipeline's staging contents, each at its pipeline's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U7 m ρ) c
  | ⟨2, _⟩ => fun c => dat2 (U11 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item of the chain. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The pipelines as items -/

set_option backward.isDefEq.respectTransparency.types false in
/-- Pipeline 0 between the host's stretches: entered with every unscoped buffer at `W1`, left with them at `W2`.
    Its arrays are split out of the unscoped buffers and put back at what the write-backs leave; the generator
    register goes into the body's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (U1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 between the host's stretches: entered with every unscoped buffer at `W7`, left with them at `W8`.
    Its arrays are split out of the unscoped buffers and put back at what the write-backs leave; the generator
    register goes into the body's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (U7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U7 m ρ c) (U8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 between the host's stretches: entered with every unscoped buffer at `W11`, left with them at `W12`.
    Its arrays are split out of the unscoped buffers and put back at what the write-backs leave; the generator
    register goes into the body's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (U11 m ρ) c
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (U11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U11 m ρ c) (U12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the chain of its items -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faults, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: the image ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W13_main_arg0 m ρ c)) (run_all m ρ)

end Cert.Kernel.Hand

end
-- ==== Proof.KIBody0.lean ====
/-
  The three kernels of `KernelIdeal`, each run once on whole staging buffers, and what each pipeline's staging buffers
  hold after the body at every grid point.

  Each body loads its input block whole, multiplies every entry by one scalar constant, re-lays the product
  (1280 × 768 as 5 × 1 × 256 × 768, or 256 × 768 as 1 × 1 × 256 × 768) and stores it whole into the output block; it
  also loads the output block, a value nothing uses. The first and the third pipeline have windows whose block
  shape does not divide the array (4000 rows by 1280, 18000 columns by 768, 16 patch rows by 5), so a block
  there is described only on its part inside the array; on their grids no block in fact reaches past the array
  (3 × 1280 ≤ 4000, 23 × 768 ≤ 18000, 3 × 5 ≤ 16), which is decided over the grid once and makes the part
  inside the array the whole block.
-/
import proofs.«112207_j51110110823149_2_alg».proof.Proof.Gen.KernelIdeal.Launch
import proofs.«112207_j51110110823149_2_alg».proof.Proof.Gen.KernelIdeal.Skeleton
import proofs.«112207_j51110110823149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when a pipeline is entered
variable (V : (c : Dev nD) → (b : Ref sig .tc) → Buf (Elt F) ((c : Thread nD τ).loc b))

/-! # The first pipeline: the interior patches -/

/-- Window `w`'s block at point `t` (its part inside the array), read off the array as the pipeline finds it. -/
def rd0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t` as a whole 1280 × 768 block. -/
def in0 (c : Dev nD) (t : Fin cfg0.N) : S1280x768.Idx → Elt F .f32 :=
  win0_0.fill (grid0.coords t) (fun _ => Scalar.ofBits .f32 0#32) (rd0 V c 0 t)

/-- No block of the input window reaches past the array at a point of the grid. -/
theorem noclip0_0 : ∀ (t : Fin cfg0.N) (a : Fin 2), win0_0.clip (grid0.coords t) a = none :=
  (by decide +kernel : ∀ (t : Fin grid0.N) (a : Fin 2), win0_0.clip (grid0.coords t) a = none)

/-- So what fills the block outside its part inside the array is never seen. -/
theorem fill0_0_indep {α : Type} (t : Fin cfg0.N) (d d' : win0_0.block.Idx → α) (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by have := (j a).isLt; unfold Window.xsize; rw [noclip0_0 t a]; exact this
  unfold Window.fill; rw [dif_pos hm, dif_pos hm]

/-- The output window is not fetched. -/
theorem nofetch0_1 : ∀ t : Fin cfg0.N, (cfg0.win 1).fetch t = false :=
  (by decide +kernel : ∀ t : Fin grid0.N, win0_1.fetch t = false)

abbrev r0_in : Rect S1280x768 := Rect.unit (s := S1280x768) ![0, 0] S1280x768.size inb_S1280x768_S1280x768_0_0
abbrev r0_out : Rect S5x1x256x768 := Rect.unit (s := S5x1x256x768) ![0, 0, 0, 0] S5x1x256x768.size inb_S5x1x256x768_S5x1x256x768_0_0_0_0

/-- The output block after the body, from the input block: its one store. -/
def out0_1 (x0 : Vec F S1280x768 .f32) : Vec F S5x1x256x768 .f32 :=
  View.canon [⟨r0_out, k0_pay1 (View.ld x0 r0_in)⟩]

theorem cover0_1 (p0 : Vec F S5x1x256x768 .f32) (y : S5x1x256x768.Idx) :
    ∃ pc ∈ ([⟨r0_out, p0⟩] : List (View.Piece (Elt F) S5x1x256x768 .f32)), y ∈ pc.1.set :=
  View.cover_of_tiled [⟨r0_out, p0⟩] S5x1x256x768.size (by rfl) y

set_option maxHeartbeats 1000000 in
/-- The body on whole staging buffers: the input's keeps its contents, the output's ends at `out0_1` of them. -/
theorem sound_kernel0 (c : Dev nD) (E : Set ℕ) (i : grid0.Coords) (arg0 : Memref sig .tc .vmem S1280x768 .f32) (harg0 : arg0.IsWhole)
    (arg1 : Memref sig .tc .vmem S5x1x256x768 .f32) (harg1 : arg1.IsWhole)
    (x0 : Vec F S1280x768 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__interior_kernel i arg0 harg0 arg1 harg1) K := by
  simp only [cc0__interior_kernel_eq_skeleton]; unfold cc0__interior_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- What the first pipeline's staging buffers hold after the body at each point: the input's its block, the
    output's the body's result of it; the arrays as the pipeline finds them. -/
def dat0 (c : Dev nD) : Dat τ (Elt F) Unit ℕ (UR sig nD τ) ℕ cfg0 c where
  A w := V c (Pipeline.arrRef spec0 w)
  after w t := match w with
    | ⟨0, _⟩ => in0 V c t
    | ⟨1, _⟩ => out0_1 (in0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = in0 V c t := by dsimp only [dat0]
theorem after0_1 (c : Dev nD) (t : Fin cfg0.N) : (dat0 V c).after 1 t = out0_1 (in0 V c t) := by dsimp only [dat0]

/-- The input's buffer, just fetched, holds the block on its part inside the array. -/
theorem before0_0 (c : Dev nD) (t : Fin cfg0.N) (d) :
    (dat0 V c).before 0 t d = win0_0.fill (grid0.coords t) d (rd0 V c 0 t) := by
  unfold Dat.before; rw [if_pos (fetch0_0 t)]
  unfold Dat.fetched Dat.blockOf rd0; rw [A_eq0]

/-- The output's buffer holds contents nothing names. -/
theorem before0_1 (c : Dev nD) (t : Fin cfg0.N) (d) : (dat0 V c).before 1 t d = d := by
  unfold Dat.before
  rw [if_neg (by rw [nofetch0_1 t]; exact Bool.false_ne_true)]
  by_cases h0 : t.val = 0
  · rw [if_pos h0]
  · rw [if_neg h0]; exact if_pos (flush0_1 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (win0_0.fill (grid0.coords t) d0 (rd0 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win0_0.cut (grid0.coords t) (in0 V c t) = rd0 V c 0 t from win0_0.cut_fill _ _ _]
    iexact H0
  · iexists out0_1 (in0 V c t)
    rw [win0_1.fill_cut, show in0 V c t = win0_0.fill (grid0.coords t) d0 (rd0 V c 0 t) from fill0_0_indep t _ _ _]
    iexact H1

theorem body_obligation0 (c : Dev nD) : BodyObligationLoose (dat0 (F := F) V c) (defs₀ (F := F)) Variants.none () Set.univ := fun t => by
  rw [bigSep_W0, bigSep_W0]
  exact sound_body0 V c t

end Cert.KernelIdeal.Hand

end
-- ==== Proof.KIBody1.lean ====
/-
  The second kernel of `KernelIdeal` — the last row of patches — run once on whole staging buffers, and what its
  pipeline's staging buffers hold after the body at every grid point.

  The body loads its 256 × 768 input block whole, multiplies every entry by one scalar constant, re-lays the product
  as 1 × 1 × 256 × 768 and stores it whole into the output block; it also loads the output block, a value nothing
  uses, and never touches the block of the array the output is a copy of. Every block lies inside its array.
-/
import proofs.«112207_j51110110823149_2_alg».proof.Proof.Gen.KernelIdeal.Launch
import proofs.«112207_j51110110823149_2_alg».proof.Proof.Gen.KernelIdeal.Skeleton
import proofs.«112207_j51110110823149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! # The second pipeline: the last row of patches -/

/-- Window `w`'s block at point `t`, read off the array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any staging contents whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_in : Rect S256x768 := Rect.unit (s := S256x768) ![0, 0] S256x768.size inb_S256x768_S256x768_0_0
abbrev r1_out : Rect S1x1x256x768 := Rect.unit (s := S1x1x256x768) ![0, 0, 0, 0] S1x1x256x768.size inb_S1x1x256x768_S1x1x256x768_0_0_0_0

/-- The output block after the body, from the input block: its one store. -/
def out1_2 (x0 : Vec F S256x768 .f32) : Vec F S1x1x256x768 .f32 :=
  View.canon [⟨r1_out, k1_pay1 (View.ld x0 r1_in)⟩]

theorem cover1_2 (p0 : Vec F S1x1x256x768 .f32) (y : S1x1x256x768.Idx) :
    ∃ pc ∈ ([⟨r1_out, p0⟩] : List (View.Piece (Elt F) S1x1x256x768 .f32)), y ∈ pc.1.set :=
  View.cover_of_tiled [⟨r1_out, p0⟩] S1x1x256x768.size (by rfl) y

set_option maxHeartbeats 1000000 in
/-- The body on whole staging buffers: the input's keeps its contents, the output's ends at `out1_2` of them; the
    third buffer is not touched. -/
theorem sound_kernel1 (c : Dev nD) (E : Set ℕ) (i : grid1.Coords) (arg0 : Memref sig .tc .vmem S256x768 .f32) (harg0 : arg0.IsWhole)
    (arg1 : Memref sig .tc .vmem S1x1x256x768 .f32) (harg1 : arg1.IsWhole)
    (arg2 : Memref sig .tc .vmem S1x1x256x768 .f32) (harg2 : arg2.IsWhole)
    (x0 : Vec F S256x768 .f32) (K : PUnit → sProp 𝕄) :
    iprop(owns (c : Thread nD τ) arg0 fullShare x0 ∗ (∃ d, owns (c : Thread nD τ) arg2 fullShare d)
        ∗ (iprop(owns (c : Thread nD τ) arg0 fullShare x0 ∗ owns (c : Thread nD τ) arg2 fullShare (out1_2 x0)) -∗ K ⟨⟩))
      ⊢ wp frame (wpE (defs₀ (F := F)) Variants.none c none) E (cc1__row_boundary_kernel i arg0 harg0 arg1 harg1 arg2 harg2) K := by
  simp only [cc1__row_boundary_kernel_eq_skeleton]; unfold cc1__row_boundary_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_2 _)

/-- What the second pipeline's staging buffers hold after the body at each point: each input's its block, the
    output's the body's result of the first input's block; the arrays as the pipeline finds them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H2]; · iexists _; iexact H2
  iintro ⟨H0, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  The third kernel of `KernelIdeal` — the last column of patches — run once on whole staging buffers, and what its
  pipeline's staging buffers hold after the body at every grid point.

  The body loads its 1280 × 768 input block whole, multiplies every entry by one scalar constant, re-lays the product
  as 5 × 1 × 256 × 768 and stores it whole into the output block; it also loads the output block, a value nothing
  uses, and never touches the block of the array the output is a copy of. The input's blocks lie inside its array;
  the other two windows' block shape does not divide theirs (16 patch rows by 5), so their buffers are described on
  the block's part inside the array only.
-/
import proofs.«112207_j51110110823149_2_alg».proof.Proof.Gen.KernelIdeal.Launch
import proofs.«112207_j51110110823149_2_alg».proof.Proof.Gen.KernelIdeal.Skeleton
import proofs.«112207_j51110110823149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! # The third pipeline: the last column of patches -/

/-- Window `w`'s block at point `t` (its part inside the array), read off the array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's current buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of the copied array at point `t` as a whole 5 × 1 × 256 × 768 block. -/
def prev2 (c : Dev nD) (t : Fin cfg2.N) : S5x1x256x768.Idx → Elt F .f32 :=
  win2_1.fill (grid2.coords t) (fun _ => Scalar.ofBits .f32 0#32) (iblk2 V c 1 t)

/-- The output window is not fetched. -/
theorem nofetch2_2 : ∀ t : Fin cfg2.N, (cfg2.win 2).fetch t = false :=
  (by decide +kernel : ∀ t : Fin grid2.N, win2_2.fetch t = false)

abbrev r2_in : Rect S1280x768 := Rect.unit (s := S1280x768) ![0, 0] S1280x768.size inb_S1280x768_S1280x768_0_0
abbrev r2_out : Rect S5x1x256x768 := Rect.unit (s := S5x1x256x768) ![0, 0, 0, 0] S5x1x256x768.size inb_S5x1x256x768_S5x1x256x768_0_0_0_0

/-- The output block after the body, from the input block: its one store. -/
def out2_2 (x0 : Vec F S1280x768 .f32) : Vec F S5x1x256x768 .f32 :=
  View.canon [⟨r2_out, k2_pay1 (View.ld x0 r2_in)⟩]

theorem cover2_2 (p0 : Vec F S5x1x256x768 .f32) (y : S5x1x256x768.Idx) :
    ∃ pc ∈ ([⟨r2_out, p0⟩] : List (View.Piece (Elt F) S5x1x256x768 .f32)), y ∈ pc.1.set :=
  View.cover_of_tiled [⟨r2_out, p0⟩] S5x1x256x768.size (by rfl) y

set_option maxHeartbeats 1000000 in
/-- The body on whole staging buffers: the input's keeps its contents, the output's ends at `out2_2` of them; the
    third buffer is not touched. -/
theorem sound_kernel2 (c : Dev nD) (E : Set ℕ) (i : grid2.Coords) (arg0 : Memref sig .tc .vmem S1280x768 .f32) (harg0 : arg0.IsWhole)
    (arg1 : Memref sig .tc .vmem S5x1x256x768 .f32) (harg1 : arg1.IsWhole)
    (arg2 : Memref sig .tc .vmem S5x1x256x768 .f32) (harg2 : arg2.IsWhole)
    (x0 : Vec F S1280x768 .f32) (K : PUnit → sProp 𝕄) :
    iprop(owns (c : Thread nD τ) arg0 fullShare x0 ∗ (∃ d, owns (c : Thread nD τ) arg2 fullShare d)
        ∗ (iprop(owns (c : Thread nD τ) arg0 fullShare x0 ∗ owns (c : Thread nD τ) arg2 fullShare (out2_2 x0)) -∗ K ⟨⟩))
      ⊢ wp frame (wpE (defs₀ (F := F)) Variants.none c none) E (cc2__col_boundary_kernel i arg0 harg0 arg1 harg1 arg2 harg2) K := by
  simp only [cc2__col_boundary_kernel_eq_skeleton]; unfold cc2__col_boundary_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_2 _)

/-- What the third pipeline's staging buffers hold after the body at each point: the input's its block, the copied
    array's its block, the output's the body's result of the input's block; the arrays as the pipeline finds them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => prev2 V c t
    | ⟨2, _⟩ => out2_2 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = prev2 V c t := by dsimp only [dat2]
theorem after2_2 (c : Dev nD) (t : Fin cfg2.N) : (dat2 V c).after 2 t = out2_2 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- The copied array's buffer, just fetched, holds the block on its part inside the array. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]

/-- The output's buffer holds contents nothing names. -/
theorem before2_2 (c : Dev nD) (t : Fin cfg2.N) (d) : (dat2 V c).before 2 t d = d := by
  unfold Dat.before
  rw [if_neg (by rw [nofetch2_2 t]; exact Bool.false_ne_true)]
  by_cases h0 : t.val = 0
  · rw [if_pos h0]
  · rw [if_neg h0]; exact if_pos (flush2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) _)
  isplitl [H0]; · iexact H0
  isplitl [H2]; · iexists _; iexact H2
  iintro ⟨H0, H2⟩
  isplitl [HΦ]; · iexact HΦ
  isplitl [Ho]; · iexact Ho
  isplitl [H0]; · iexact H0
  isplitl [H1]
  · iexists d1
    rw [show win2_1.cut (grid2.coords t) (prev2 V c t) = iblk2 V c 1 t from win2_1.cut_fill _ _ _]
    iexact H1
  · iexists out2_2 (iblk2 V c 0 t)
    rw [win2_2.fill_cut]
    iexact H2

theorem body_obligation2 (c : Dev nD) : BodyObligationLoose (dat2 (F := F) V c) (defs₀ (F := F)) Variants.none () Set.univ := fun t => by
  rw [bigSep_W2, bigSep_W2]
  exact sound_body2 V c t

end Cert.KernelIdeal.Hand

end
-- ==== Proof.KIRun.lean ====
/-
  The run of `KernelIdeal`'s @main: thirteen items — ten stretches of host operations and three pipelines — chained
  from the launch memory to the return, with every unscoped buffer's contents named at each boundary.

  A stretch of host operations leaves each buffer at the operations' pure result of what the stretch found; a
  pipeline leaves its arrays at what its write-backs leave (the inputs as entered, the output with every written
  block overwritten) and every other buffer as entered. Every weakly fair execution terminates, nothing faults,
  and the final memory holds each unscoped buffer at the last boundary's contents. The image is written by no
  item, so it ends as launched.
-/
import proofs.«112207_j51110110823149_2_alg».proof.Proof.KIBody0
import proofs.«112207_j51110110823149_2_alg».proof.Proof.KIBody1
import proofs.«112207_j51110110823149_2_alg».proof.Proof.KIBody2
import proofs.«112207_j51110110823149_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At pipeline 0's exit: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev U7 : (c : Dev nD) → (b : Ref sig .tc) → Buf (Elt F) ((c : Thread nD τ).loc b) := fun c b => W7 m ρ c b

/-- At pipeline 1's exit: its arrays at what its write-backs leave, every other buffer as entered. -/
def W8 (c : Dev nD) : Valuation τ sig (Elt F) :=
  Pipeline.withArrays spec1 c (W7 m ρ c) fun w => (dat1 (U7 m ρ) c).arrAt w cfg1.N
theorem W8_arr (c : Dev nD) (w : Fin cfg1.W) :
    W8 m ρ c (Proc.devRef .tc (Pipeline.arrRef spec1 w)) = (dat1 (U7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev U8 : (c : Dev nD) → (b : Ref sig .tc) → Buf (Elt F) ((c : Thread nD τ).loc b) := fun c b => W8 m ρ c b
theorem hF1 (c : Dev nD) (w : Fin cfg1.W) : (dat1 (U7 m ρ) c).arrAt w cfg1.N = U8 m ρ c (Pipeline.arrRef spec1 w) :=
  (W8_arr m ρ c w).symm
theorem hrest1 (c : Dev nD) : ∀ b, b ∉ Finset.univ.image (Pipeline.arrRef spec1) → U8 m ρ c b = U7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev U11 : (c : Dev nD) → (b : Ref sig .tc) → Buf (Elt F) ((c : Thread nD τ).loc b) := fun c b => W11 m ρ c b

/-- At pipeline 2's exit: its arrays at what its write-backs leave, every other buffer as entered. -/
def W12 (c : Dev nD) : Valuation τ sig (Elt F) :=
  Pipeline.withArrays spec2 c (W11 m ρ c) fun w => (dat2 (U11 m ρ) c).arrAt w cfg2.N
theorem W12_arr (c : Dev nD) (w : Fin cfg2.W) :
    W12 m ρ c (Proc.devRef .tc (Pipeline.arrRef spec2 w)) = (dat2 (U11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev U12 : (c : Dev nD) → (b : Ref sig .tc) → Buf (Elt F) ((c : Thread nD τ).loc b) := fun c b => W12 m ρ c b
theorem hF2 (c : Dev nD) (w : Fin cfg2.W) : (dat2 (U11 m ρ) c).arrAt w cfg2.N = U12 m ρ c (Pipeline.arrRef spec2 w) :=
  (W12_arr m ρ c w).symm
theorem hrest2 (c : Dev nD) : ∀ b, b ∉ Finset.univ.image (Pipeline.arrRef spec2) → U12 m ρ c b = U11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)

/-! ## The image ends as launched -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps3 _ hostOps3_writes (by decide)
    _ = W11 m ρ c (Proc.devRef .tc main_arg0) := W12_of_ne m ρ c main_arg0 (by decide)
    _ = W10 m ρ c (Proc.devRef .tc main_arg0) := StableHlo.after_of_writes_sub hostOps2_2 _ hostOps2_2_writes (by decide)
    _ = W9 m ρ c (Proc.devRef .tc main_arg0) := StableHlo.after_of_writes_sub hostOps2_1 _ hostOps2_1_writes (by decide)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-! ## The staging contents of every pipeline, and what rides beside the buffers -/

/-- Every pipeline's staging contents, each at its pipeline's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U7 m ρ) c
  | ⟨2, _⟩ => fun c => dat2 (U11 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item of the chain. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The pipelines as items -/

set_option backward.isDefEq.respectTransparency.types false in
/-- Pipeline 0 between the host's stretches: entered with every unscoped buffer at `W1`, left with them at `W2`.
    Its arrays are split out of the unscoped buffers and put back at what the write-backs leave; the generator
    register goes into the body's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (U1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 between the host's stretches: entered with every unscoped buffer at `W7`, left with them at `W8`.
    Its arrays are split out of the unscoped buffers and put back at what the write-backs leave; the generator
    register goes into the body's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (U7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U7 m ρ c) (U8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 between the host's stretches: entered with every unscoped buffer at `W11`, left with them at `W12`.
    Its arrays are split out of the unscoped buffers and put back at what the write-backs leave; the generator
    register goes into the body's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (U11 m ρ) c
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (U11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U11 m ρ c) (U12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the chain of its items -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faults, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: the image ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W13_main_arg0 m ρ c)) (run_all m ρ)

end Cert.KernelIdeal.Hand

end
-- ==== Proof.KIHost.lean ====
/-
  The three arrays the pipelines of `KernelIdeal` read, as pure functions of the image `x` (4000 × 6000 × 3):

  * `flat x` — the image with pixel column and channel merged, 4000 × 18000;
  * `rowFlat x` — the strip of the last 256 padded rows, 256 × 18432: rows 3744‥3999 of the image, padded below
    by the mirror image of rows 3903‥3998, of which rows 96‥351 are kept (padded rows 3840‥4095), then padded on the
    right by the mirror image of columns 5855‥5998 to 6144 columns, pixel column and channel merged;
  * `colFlat x` — the strip of the last 256 padded columns over the first 3840 rows, 3840 × 768: columns 5744‥5999,
    padded on the right by the mirror image of columns 5855‥5998, of which columns 144‥399 are kept (padded columns
    5888‥6143), pixel column and channel merged.
-/
import proofs.«112207_j51110110823149_2_alg».proof.Proof.Gen.KernelIdeal

noncomputable section

namespace Cert.KernelIdeal.Hand

open Cert.KernelIdeal Cert.KernelIdeal.Facts₀
open Idealize.ShloMosaic

variable {F : FTy → Type} [FloatOps F]

/-- The image, pixel column and channel merged. -/
def flat (x : FVec F S4000x6000x3 .f32) : FVec F S4000x18000 .f32 :=
  shapeCast S4000x18000 x shapeCasts_S4000x6000x3_S4000x18000

/-- Rows 3744‥3999 of the image. -/
def lastRows (x : FVec F S4000x6000x3 .f32) : FVec F S256x6000x3 .f32 :=
  extractStridedSlice S256x6000x3 ![3744, 0, 0] x slices_S4000x6000x3_S256x6000x3_3744_0_0

/-- Those rows followed by the mirror image of their rows 159‥254. -/
def lastRowsPadded (x : FVec F S4000x6000x3 .f32) : FVec F S352x6000x3 .f32 :=
  concatenate S352x6000x3 0 [⟨S256x6000x3, lastRows x⟩,
    ⟨S96x6000x3, Host.reverse [0] (extractStridedSlice S96x6000x3 ![159, 0, 0] (lastRows x) slices_S256x6000x3_S96x6000x3_159_0_0)⟩]
    concatenates_S256x6000x3_S96x6000x3_S352x6000x3_d0

/-- Padded rows 3840‥4095, all 6000 columns. -/
def rowStrip (x : FVec F S4000x6000x3 .f32) : FVec F S256x6000x3 .f32 :=
  extractStridedSlice S256x6000x3 ![96, 0, 0] (lastRowsPadded x) slices_S352x6000x3_S256x6000x3_96_0_0

/-- The same, padded on the right to 6144 columns by the mirror image of columns 5855‥5998. -/
def rowStripPadded (x : FVec F S4000x6000x3 .f32) : FVec F S256x6144x3 .f32 :=
  concatenate S256x6144x3 1 [⟨S256x6000x3, rowStrip x⟩,
    ⟨S256x144x3, Host.reverse [1] (extractStridedSlice S256x144x3 ![0, 5855, 0] (rowStrip x) slices_S256x6000x3_S256x144x3_0_5855_0)⟩]
    concatenates_S256x6000x3_S256x144x3_S256x6144x3_d1

/-- The last row of patches' source strip, pixel column and channel merged. -/
def rowFlat (x : FVec F S4000x6000x3 .f32) : FVec F S256x18432 .f32 :=
  shapeCast S256x18432 (rowStripPadded x) shapeCasts_S256x6144x3_S256x18432

/-- Columns 5744‥5999 of the first 3840 rows of the image. -/
def lastCols (x : FVec F S4000x6000x3 .f32) : FVec F S3840x256x3 .f32 :=
  extractStridedSlice S3840x256x3 ![0, 5744, 0] x slices_S4000x6000x3_S3840x256x3_0_5744_0

/-- Those columns followed by the mirror image of their columns 111‥254. -/
def lastColsPadded (x : FVec F S4000x6000x3 .f32) : FVec F S3840x400x3 .f32 :=
  concatenate S3840x400x3 1 [⟨S3840x256x3, lastCols x⟩,
    ⟨S3840x144x3, Host.reverse [1] (extractStridedSlice S3840x144x3 ![0, 111, 0] (lastCols x) slices_S3840x256x3_S3840x144x3_0_111_0)⟩]
    concatenates_S3840x256x3_S3840x144x3_S3840x400x3_d1

/-- Padded columns 5888‥6143 of the first 3840 rows. -/
def colStrip (x : FVec F S4000x6000x3 .f32) : FVec F S3840x256x3 .f32 :=
  extractStridedSlice S3840x256x3 ![0, 144, 0] (lastColsPadded x) slices_S3840x400x3_S3840x256x3_0_144_0

/-- The last column of patches' source strip, pixel column and channel merged. -/
def colFlat (x : FVec F S4000x6000x3 .f32) : FVec F S3840x768 .f32 :=
  shapeCast S3840x768 (colStrip x) shapeCasts_S3840x256x3_S3840x768

end Cert.KernelIdeal.Hand

end
-- ==== Proof.KIChain.lean ====
/-
  The buffers the pipelines of `KernelIdeal` read and write, at each boundary of the run, as functions of the image
  `x` (the launch contents of the argument):

  the first pipeline reads the flattened image; the second the strip of the last 256 padded rows and, as the array it
  overwrites a part of, a copy of what the first left; the third the strip of the last 256 padded columns and a copy
  of what the second left; the result is the third's array re-laid as 384 patches.
-/
import proofs.«112207_j51110110823149_2_alg».proof.Proof.KIRun
import proofs.«112207_j51110110823149_2_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The image on core `c`. -/
abbrev img (c : Dev nD) : FVec F S4000x6000x3 .f32 := m ((c : Thread nD τ).loc main_arg0)

theorem W1_arg0 (c : Dev nD) : W1 m ρ c (Proc.devRef .tc main_arg0) = img m c :=
  (StableHlo.after_of_writes_sub hostOps0 _ hostOps0_writes (by decide)).trans rfl

/-- The first pipeline reads the flattened image. -/
theorem W1_v0 (c : Dev nD) : W1 m ρ c (Proc.devRef .tc main_v0) = flat (img m c) := by
  show StableHlo.after hostOps0 (W0 m ρ c) (Proc.devRef .tc main_v0) = _
  after_results
  rfl

theorem W2_arg0 (c : Dev nD) : W2 m ρ c (Proc.devRef .tc main_arg0) = img m c :=
  (W2_of_ne m ρ c main_arg0 (by decide)).trans (W1_arg0 m ρ c)

/-- The second pipeline reads the strip of the last 256 padded rows. -/
theorem W7_v6 (c : Dev nD) : W7 m ρ c (Proc.devRef .tc main_v6) = rowFlat (img m c) := by
  show StableHlo.after hostOps1_4 (StableHlo.after hostOps1_3 (StableHlo.after hostOps1_2 (StableHlo.after hostOps1_1
    (StableHlo.after hostOps1 (W2 m ρ c))))) (Proc.devRef .tc main_v6) = _
  after_results
  rw [W2_arg0]
  rfl

/-- The array it overwrites a part of starts as a copy of what the first pipeline left. -/
theorem W7_v7 (c : Dev nD) : W7 m ρ c (Proc.devRef .tc main_v7) = W2 m ρ c (Proc.devRef .tc main_v1) := by
  show StableHlo.after hostOps1_4 (StableHlo.after hostOps1_3 (StableHlo.after hostOps1_2 (StableHlo.after hostOps1_1
    (StableHlo.after hostOps1 (W2 m ρ c))))) (Proc.devRef .tc main_v7) = _
  after_results
  rfl

theorem W8_arg0 (c : Dev nD) : W8 m ρ c (Proc.devRef .tc main_arg0) = img m c := by
  rw [W8_of_ne m ρ c main_arg0 (by decide)]
  show StableHlo.after hostOps1_4 (StableHlo.after hostOps1_3 (StableHlo.after hostOps1_2 (StableHlo.after hostOps1_1
    (StableHlo.after hostOps1 (W2 m ρ c))))) (Proc.devRef .tc main_arg0) = _
  after_results
  exact W2_arg0 m ρ c

/-- The third pipeline reads the strip of the last 256 padded columns. -/
theorem W11_v11 (c : Dev nD) : W11 m ρ c (Proc.devRef .tc main_v11) = colFlat (img m c) := by
  show StableHlo.after hostOps2_2 (StableHlo.after hostOps2_1 (StableHlo.after hostOps2 (W8 m ρ c))) (Proc.devRef .tc main_v11) = _
  after_results
  rw [W8_arg0]
  rfl

/-- The array it overwrites a part of starts as a copy of what the second pipeline left. -/
theorem W11_v12 (c : Dev nD) : W11 m ρ c (Proc.devRef .tc main_v12) = W8 m ρ c (Proc.devRef .tc main_v7) := by
  show StableHlo.after hostOps2_2 (StableHlo.after hostOps2_1 (StableHlo.after hostOps2 (W8 m ρ c))) (Proc.devRef .tc main_v12) = _
  after_results
  rfl

/-- The result is the third pipeline's array, re-laid. -/
theorem W13_v13 (c : Dev nD) : W13 m ρ c (Proc.devRef .tc main_v13)
    = shapeCast S384x256x256x3 (W12 m ρ c (Proc.devRef .tc main_v12)) Facts₀.shapeCasts_S16x24x256x768_S384x256x256x3 := by
  show StableHlo.after hostOps3 (W12 m ρ c) (Proc.devRef .tc main_v13) = _
  after_results
  rfl

end Cert.KernelIdeal.Hand

end
-- ==== Proof.KIVal0.lean ====
/-
  What the first pipeline of `KernelIdeal` leaves in the patches array: every patch `(hi, wi)` with `hi < 15` and
  `wi < 23` holds the scaled image, entry `(r, p)` of the patch the flattened image's entry
  `(256 * hi + r, 768 * wi + p)` times the scale; every other entry is what the array held when the pipeline was entered.

  Point `t` of the 3 × 23 grid reads rows `1280 * (t / 23)‥` and columns `768 * (t % 23)‥` of the flattened image, and
  writes patches `5 * (t / 23)‥5 * (t / 23) + 4` of patch column `t % 23`; the body's re-laying sends row `256 * a + r` of
  its block to row `r` of the block's patch `a`.
-/
import proofs.«112207_j51110110823149_2_alg».proof.Proof.KIBody0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The body's one store, whole, of the payload of its one whole load. -/
theorem out0_1_eq (x0 : Vec F S1280x768 .f32) : out0_1 x0 = k0_pay1 x0 := by
  unfold out0_1
  rw [View.canon_unit_zero hz4, View.ld_unit_zero hz2]

/-- The payload at patch `a` of the block, row `r`, position `p`: the block's entry `(256 * a + r, p)` times the scale. -/
theorem k0_pay1_apply (x0 : Vec F S1280x768 .f32) (a : Fin 5) (u : Fin 1) (r : Fin 256) (p : Fin 768) :
    k0_pay1 x0 (ix4 a u r p)
      = FloatOps.mulf (x0 (ix2 (⟨a.val * 256 + r.val, by have := a.isLt; have := r.isLt; omega⟩ : Fin 1280) p)) (Scalar.ofBits .f32 0x3B808081#32) := by
  unfold k0_pay1
  have hu : u.val = 0 := by have := u.isLt; omega
  rw [shapeCast_apply _ _ (ix4 a u r p) (ix3 a r p) (by
    rw [Shape.rowMajor_val_three, Shape.rowMajor_val_four]
    show (a.val * 256 + r.val) * 768 + p.val = ((a.val * 1 + u.val) * 256 + r.val) * 768 + p.val
    rw [hu]; omega)]
  rw [shapeCast_apply _ _ (ix3 a r p) (ix2 (⟨a.val * 256 + r.val, by have := a.isLt; have := r.isLt; omega⟩ : Fin 1280) p) (by
    rw [Shape.rowMajor_val_two, Shape.rowMajor_val_three]
    show (a.val * 256 + r.val) * 768 + p.val = (a.val * 256 + r.val) * 768 + p.val
    rfl)]
  rw [shapeCast_self]
  rfl

/-! ## Where point `t`'s blocks sit -/

/-- The input window's block index at point `t`. -/
theorem idx0_0 : ∀ (t : Fin cfg0.N) (a : Fin 2), win0_0.index t a = ![t.val / 23, t.val % 23] a :=
  (by decide +kernel : ∀ (t : Fin grid0.N) (a : Fin 2), win0_0.index t a = ![t.val / 23, t.val % 23] a)
/-- The output window's block index at point `t`. -/
theorem idx0_1 : ∀ (t : Fin cfg0.N) (a : Fin 4), win0_1.index t a = ![t.val / 23, t.val % 23, 0, 0] a :=
  (by decide +kernel : ∀ (t : Fin grid0.N) (a : Fin 4), win0_1.index t a = ![t.val / 23, t.val % 23, 0, 0] a)
/-- No block of the output window reaches past the array at a point of the grid. -/
theorem noclip0_1 : ∀ (t : Fin cfg0.N) (a : Fin 4), win0_1.clip (grid0.coords t) a = none :=
  (by decide +kernel : ∀ (t : Fin grid0.N) (a : Fin 4), win0_1.clip (grid0.coords t) a = none)

/-- What the first pipeline writes, as one function of the flattened image: patch `(hi, wi)`'s entry `(r, p)` is the
    image's entry `(256 * hi + r, 768 * wi + p)` times the scale (positions taken modulo the image's extents, which
    changes nothing where the pipeline writes). -/
def G0 (xf : FVec F S4000x18000 .f32) : FVec F S16x24x256x768 .f32 := fun i =>
  FloatOps.mulf (xf (ix2 (⟨((i 0).val * 256 + (i 2).val) % 4000, Nat.mod_lt _ (by decide)⟩ : Fin 4000)
      (⟨((i 1).val * 768 + (i 3).val) % 18000, Nat.mod_lt _ (by decide)⟩ : Fin 18000))) (Scalar.ofBits .f32 0x3B808081#32)

/-- The input block at point `t`, at block position `(R, p)`: the flattened image at row `1280 * (t / 23) + R`, column
    `768 * (t % 23) + p`. -/
theorem in0_apply (c : Dev nD) (t : Fin cfg0.N) (R : Fin 1280) (p : Fin 768) :
    in0 V c t (ix2 R p)
      = V c main_v0 (ix2 (⟨t.val / 23 * 1280 + R.val, by have := t.isLt; have h : cfg0.N = 69 := N_0; have := R.isLt; omega⟩ : Fin 4000)
          (⟨t.val % 23 * 768 + p.val, by have := p.isLt; omega⟩ : Fin 18000)) := by
  have hm : win0_0.moved (grid0.coords t) (ix2 R p) = true :=
    (win0_0.moved_iff _ _).mpr fun a => by
      have := ((ix2 R p : S1280x768.Idx) a).isLt; unfold Window.xsize; rw [noclip0_0 t a]; exact this
  unfold in0 Window.fill
  rw [dif_pos hm]
  unfold rd0
  rw [View.read_apply]
  rw [cast_eq]
  refine congrArg (V c main_v0) (funext fun a => Fin.ext ?_)
  show ((win0_0.rect t).emb _ a : Nat) = _
  rw [Window.rect_emb_val, idx0_0]
  match a with
  | ⟨0, _⟩ => rfl
  | ⟨1, _⟩ => rfl

theorem ix2_congr {n0 n1 : Nat} {a a' : Fin n0} {b b' : Fin n1} (ha : a = a') (hb : b = b') : ix2 a b = ix2 a' b' := by
  subst ha; subst hb; rfl

/-- What point `t` writes back is its block of `G0` of the flattened image. -/
theorem flushed0_1 (c : Dev nD) (t : Fin cfg0.N) :
    (dat0 V c).flushed 1 t = ((cfg0.win 1).blk t).view.read (Elt F) (G0 (V c main_v0)) := by
  funext y
  have hy : ∀ a, (y a).val < S5x1x256x768.size a := fun a => by
    have h : (y a).val < (win0_1.clip (grid0.coords t) a).extent (win0_1.size a) := (y a).isLt
    rw [noclip0_1 t a] at h; exact h
  have h0 : (y 0).val < 5 := hy 0
  have h1 : (y 1).val < 1 := hy 1
  have h2 : (y 2).val < 256 := hy 2
  have h3 : (y 3).val < 768 := hy 3
  have ht : t.val < 69 := by have := t.isLt; have h : cfg0.N = 69 := N_0; omega
  have hx : win0_1.xinj (grid0.coords t) y = ix4 (⟨(y 0).val, h0⟩ : Fin 5) (⟨(y 1).val, h1⟩ : Fin 1) (⟨(y 2).val, h2⟩ : Fin 256) (⟨(y 3).val, h3⟩ : Fin 768) :=
    funext fun a => by match a with | ⟨0, _⟩ => rfl | ⟨1, _⟩ => rfl | ⟨2, _⟩ => rfl | ⟨3, _⟩ => rfl
  have e : ∀ a, (((cfg0.win 1).blk t).view.emb y a : Nat) = win0_1.index t a * win0_1.size a + (y a).val :=
    fun a => Window.rect_emb_val win0_1 t y a
  have e0 : (((cfg0.win 1).blk t).view.emb y 0 : Nat) = t.val / 23 * 5 + (y 0).val := by rw [e 0, idx0_1]; rfl
  have e1 : (((cfg0.win 1).blk t).view.emb y 1 : Nat) = t.val % 23 * 1 + (y 1).val := by rw [e 1, idx0_1]; rfl
  have e2 : (((cfg0.win 1).blk t).view.emb y 2 : Nat) = 0 * 256 + (y 2).val := by rw [e 2, idx0_1]; rfl
  have e3 : (((cfg0.win 1).blk t).view.emb y 3 : Nat) = 0 * 768 + (y 3).val := by rw [e 3, idx0_1]; rfl
  show (dat0 V c).after 1 t (win0_1.xinj (grid0.coords t) y) = _
  rw [after0_1, out0_1_eq, hx, k0_pay1_apply, in0_apply, View.read_apply, cast_eq]
  unfold G0
  refine congrArg (fun k => FloatOps.mulf (V c main_v0 k) (Scalar.ofBits .f32 0x3B808081#32)) (ix2_congr (Fin.ext ?_) (Fin.ext ?_))
  · show t.val / 23 * 1280 + ((y 0).val * 256 + (y 2).val)
      = ((((cfg0.win 1).blk t).view.emb y 0 : Nat) * 256 + (((cfg0.win 1).blk t).view.emb y 2 : Nat)) % 4000
    rw [e0, e2]; omega
  · show t.val % 23 * 768 + (y 3).val
      = ((((cfg0.win 1).blk t).view.emb y 1 : Nat) * 768 + (((cfg0.win 1).blk t).view.emb y 3 : Nat)) % 18000
    rw [e1, e3]; omega

/-- Point `t`'s output block covers patches `5 * (t / 23)‥5 * (t / 23) + 4` of patch column `t % 23`, whole. -/
theorem mem_blk0_1 (t : Fin cfg0.N) (i : S16x24x256x768.Idx) :
    i ∈ ((cfg0.win 1).blk t).view.set ↔ (t.val / 23 * 5 ≤ (i 0).val ∧ (i 0).val < t.val / 23 * 5 + 5) ∧ (i 1).val = t.val % 23 := by
  show i ∈ ((View.whole main_v1).slice (win0_1.rect t)).set ↔ _
  rw [View.set_slice_whole, Rect.mem_set_unit]
  have hx : ∀ a, win0_1.xsize (grid0.coords t) a = win0_1.size a := fun a => by unfold Window.xsize; rw [noclip0_1 t a]
  have hi2 : (i 2).val < 256 := (i 2).isLt
  have hi3 : (i 3).val < 768 := (i 3).isLt
  constructor
  · intro h
    have h0 := h 0; have h1 := h 1
    rw [hx, idx0_1] at h0 h1
    have h0' : t.val / 23 * 5 ≤ (i 0).val ∧ (i 0).val < t.val / 23 * 5 + 5 := h0
    have h1' : t.val % 23 * 1 ≤ (i 1).val ∧ (i 1).val < t.val % 23 * 1 + 1 := h1
    omega
  · intro h a
    rw [hx, idx0_1]
    match a with
    | ⟨0, _⟩ => exact (show t.val / 23 * 5 ≤ (i 0).val ∧ (i 0).val < t.val / 23 * 5 + 5 from h.1)
    | ⟨1, _⟩ => exact (show t.val % 23 * 1 ≤ (i 1).val ∧ (i 1).val < t.val % 23 * 1 + 1 from by omega)
    | ⟨2, _⟩ => exact (show 0 * 256 ≤ (i 2).val ∧ (i 2).val < 0 * 256 + 256 from by omega)
    | ⟨3, _⟩ => exact (show 0 * 768 ≤ (i 3).val ∧ (i 3).val < 0 * 768 + 768 from by omega)

/-- THE PATCHES ARRAY AFTER THE FIRST PIPELINE: the interior patches at the scaled image, every other entry as entered. -/
theorem arr0 (c : Dev nD) (i : S16x24x256x768.Idx) :
    (dat0 V c).arrAt 1 cfg0.N i
      = if (i 0).val < 15 ∧ (i 1).val < 23 then G0 (V c main_v0) i else V c main_v1 i := by
  rw [(dat0 V c).arrAt_eq_piecewise 1 (G0 (V c main_v0)) (fun t _ => flushed0_1 V c t) i]
  have hN : cfg0.N = 69 := N_0
  have hi0 : (i 0).val < 16 := (i 0).isLt
  have hi1 : (i 1).val < 24 := (i 1).isLt
  by_cases h : (i 0).val < 15 ∧ (i 1).val < 23
  · rw [if_pos h, if_pos]
    refine ⟨⟨(i 0).val / 5 * 23 + (i 1).val, by omega⟩, flush0_1 _, (mem_blk0_1 _ i).mpr ?_⟩
    show ((((i 0).val / 5 * 23 + (i 1).val) / 23 * 5 ≤ (i 0).val ∧ (i 0).val < ((i 0).val / 5 * 23 + (i 1).val) / 23 * 5 + 5)) ∧ (i 1).val = ((i 0).val / 5 * 23 + (i 1).val) % 23
    omega
  · rw [if_neg h, if_neg]
    · rfl
    · rintro ⟨t, -, hm⟩
      have ht : t.val < 69 := by have := t.isLt; omega
      have := (mem_blk0_1 t i).mp hm
      omega

end Cert.KernelIdeal.Hand

end
-- ==== Proof.KIVal1.lean ====
/-
  What the second pipeline of `KernelIdeal` leaves in the patches array: every patch `(15, wi)` — the last row of
  patches — holds the scaled strip, entry `(r, p)` of the patch the strip's entry `(r, 768 * wi + p)` times the
  scale; every other entry is what the array held when the pipeline was entered.

  Point `t` of the 24-point grid reads columns `768 * t‥` of the strip, all 256 rows, and writes patch `(15, t)`; the
  body's re-laying sends entry `(r, p)` of its block to entry `(r, p)` of the patch.
-/
import proofs.«112207_j51110110823149_2_alg».proof.Proof.KIBody1
import proofs.«112207_j51110110823149_2_alg».proof.Proof.KIVal0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The body's one store, whole, of the payload of its one whole load. -/
theorem out1_2_eq (x0 : Vec F S256x768 .f32) : out1_2 x0 = k1_pay1 x0 := by
  unfold out1_2
  rw [View.canon_unit_zero hz4, View.ld_unit_zero hz2]

/-- The payload at row `r`, position `p` of the one patch: the block's entry `(r, p)` times the scale. -/
theorem k1_pay1_apply (x0 : Vec F S256x768 .f32) (u v : Fin 1) (r : Fin 256) (p : Fin 768) :
    k1_pay1 x0 (ix4 u v r p) = FloatOps.mulf (x0 (ix2 r p)) (Scalar.ofBits .f32 0x3B808081#32) := by
  unfold k1_pay1
  have hu : u.val = 0 := by have := u.isLt; omega
  have hv : v.val = 0 := by have := v.isLt; omega
  rw [shapeCast_apply _ _ (ix4 u v r p) (ix2 r p) (by
    rw [Shape.rowMajor_val_two, Shape.rowMajor_val_four]
    show r.val * 768 + p.val = ((u.val * 1 + v.val) * 256 + r.val) * 768 + p.val
    rw [hu, hv]; omega)]
  rw [shapeCast_self]
  rfl

/-! ## Where point `t`'s blocks sit -/

/-- The input window's block index at point `t`. -/
theorem idx1_0 : ∀ (t : Fin cfg1.N) (a : Fin 2), win1_0.index t a = ![0, t.val] a :=
  (by decide +kernel : ∀ (t : Fin grid1.N) (a : Fin 2), win1_0.index t a = ![0, t.val] a)
/-- The output window's block index at point `t`. -/
theorem idx1_2 : ∀ (t : Fin cfg1.N) (a : Fin 4), win1_2.index t a = ![15, t.val, 0, 0] a :=
  (by decide +kernel : ∀ (t : Fin grid1.N) (a : Fin 4), win1_2.index t a = ![15, t.val, 0, 0] a)

/-- What the second pipeline writes, as one function of the strip: patch `(hi, wi)`'s entry `(r, p)` is the strip's
    entry `(r, 768 * wi + p)` times the scale (the position taken modulo the strip's extent, which changes nothing
    where the pipeline writes). -/
def G1 (rf : FVec F S256x18432 .f32) : FVec F S16x24x256x768 .f32 := fun i =>
  FloatOps.mulf (rf (ix2 (⟨(i 2).val, (i 2).isLt⟩ : Fin 256)
      (⟨((i 1).val * 768 + (i 3).val) % 18432, Nat.mod_lt _ (by decide)⟩ : Fin 18432))) (Scalar.ofBits .f32 0x3B808081#32)

/-- The input block at point `t`, at block position `(R, p)`: the strip at row `R`, column `768 * t + p`. -/
theorem in1_apply (c : Dev nD) (t : Fin cfg1.N) (R : Fin 256) (p : Fin 768) :
    iblk1 V c 0 t (ix2 R p)
      = V c main_v6 (ix2 R (⟨t.val * 768 + p.val, by have := t.isLt; have h : cfg1.N = 24 := N_1; have := p.isLt; omega⟩ : Fin 18432)) := by
  unfold iblk1
  rw [View.read_apply]
  rw [cast_eq]
  refine congrArg (V c main_v6) (funext fun a => Fin.ext ?_)
  show ((win1_0.rect t).emb _ a : Nat) = _
  rw [Window.rect_emb_val, idx1_0]
  match a with
  | ⟨0, _⟩ => show 0 * 256 + R.val = R.val; omega
  | ⟨1, _⟩ => rfl

/-- What point `t` writes back is its block of `G1` of the strip. -/
theorem flushed1_2 (c : Dev nD) (t : Fin cfg1.N) :
    (dat1 V c).flushed 2 t = ((cfg1.win 2).blk t).view.read (Elt F) (G1 (V c main_v6)) := by
  funext y
  have h0 : (y 0).val < 1 := (y 0).isLt
  have h1 : (y 1).val < 1 := (y 1).isLt
  have h2 : (y 2).val < 256 := (y 2).isLt
  have h3 : (y 3).val < 768 := (y 3).isLt
  have ht : t.val < 24 := by have := t.isLt; have h : cfg1.N = 24 := N_1; omega
  have hx : win1_2.xinj (grid1.coords t) y = ix4 (⟨(y 0).val, h0⟩ : Fin 1) (⟨(y 1).val, h1⟩ : Fin 1) (⟨(y 2).val, h2⟩ : Fin 256) (⟨(y 3).val, h3⟩ : Fin 768) :=
    funext fun a => by match a with | ⟨0, _⟩ => rfl | ⟨1, _⟩ => rfl | ⟨2, _⟩ => rfl | ⟨3, _⟩ => rfl
  have e : ∀ a, (((cfg1.win 2).blk t).view.emb y a : Nat) = win1_2.index t a * win1_2.size a + (y a).val :=
    fun a => Window.rect_emb_val win1_2 t y a
  have e1 : (((cfg1.win 2).blk t).view.emb y 1 : Nat) = t.val * 1 + (y 1).val := by rw [e 1, idx1_2]; rfl
  have e2 : (((cfg1.win 2).blk t).view.emb y 2 : Nat) = 0 * 256 + (y 2).val := by rw [e 2, idx1_2]; rfl
  have e3 : (((cfg1.win 2).blk t).view.emb y 3 : Nat) = 0 * 768 + (y 3).val := by rw [e 3, idx1_2]; rfl
  show (dat1 V c).after 2 t (win1_2.xinj (grid1.coords t) y) = _
  rw [after1_2, out1_2_eq, hx, k1_pay1_apply, in1_apply, View.read_apply, cast_eq]
  unfold G1
  refine congrArg (fun k => FloatOps.mulf (V c main_v6 k) (Scalar.ofBits .f32 0x3B808081#32)) (ix2_congr (Fin.ext ?_) (Fin.ext ?_))
  · show (y 2).val = (((cfg1.win 2).blk t).view.emb y 2 : Nat)
    rw [e2]; omega
  · show t.val * 768 + (y 3).val
      = ((((cfg1.win 2).blk t).view.emb y 1 : Nat) * 768 + (((cfg1.win 2).blk t).view.emb y 3 : Nat)) % 18432
    rw [e1, e3]; omega

/-- Point `t`'s output block is patch `(15, t)`, whole. -/
theorem mem_blk1_2 (t : Fin cfg1.N) (i : S16x24x256x768.Idx) :
    i ∈ ((cfg1.win 2).blk t).view.set ↔ (i 0).val = 15 ∧ (i 1).val = t.val := by
  show i ∈ ((View.whole main_v7).slice (win1_2.rect t)).set ↔ _
  rw [View.set_slice_whole, Rect.mem_set_unit]
  have hi2 : (i 2).val < 256 := (i 2).isLt
  have hi3 : (i 3).val < 768 := (i 3).isLt
  constructor
  · intro h
    have h0 := h 0; have h1 := h 1
    rw [idx1_2] at h0 h1
    have h0' : 15 * 1 ≤ (i 0).val ∧ (i 0).val < 15 * 1 + 1 := h0
    have h1' : t.val * 1 ≤ (i 1).val ∧ (i 1).val < t.val * 1 + 1 := h1
    omega
  · intro h a
    rw [idx1_2]
    match a with
    | ⟨0, _⟩ => exact (show 15 * 1 ≤ (i 0).val ∧ (i 0).val < 15 * 1 + 1 from by omega)
    | ⟨1, _⟩ => exact (show t.val * 1 ≤ (i 1).val ∧ (i 1).val < t.val * 1 + 1 from by omega)
    | ⟨2, _⟩ => exact (show 0 * 256 ≤ (i 2).val ∧ (i 2).val < 0 * 256 + 256 from by omega)
    | ⟨3, _⟩ => exact (show 0 * 768 ≤ (i 3).val ∧ (i 3).val < 0 * 768 + 768 from by omega)

/-- THE PATCHES ARRAY AFTER THE SECOND PIPELINE: the last row of patches at the scaled strip, every other entry as
    entered. -/
theorem arr1 (c : Dev nD) (i : S16x24x256x768.Idx) :
    (dat1 V c).arrAt 2 cfg1.N i = if (i 0).val = 15 then G1 (V c main_v6) i else V c main_v7 i := by
  rw [(dat1 V c).arrAt_eq_piecewise 2 (G1 (V c main_v6)) (fun t _ => flushed1_2 V c t) i]
  have hN : cfg1.N = 24 := N_1
  have hi1 : (i 1).val < 24 := (i 1).isLt
  by_cases h : (i 0).val = 15
  · rw [if_pos h, if_pos]
    exact ⟨⟨(i 1).val, by omega⟩, flush1_2 _, (mem_blk1_2 _ i).mpr ⟨h, rfl⟩⟩
  · rw [if_neg h, if_neg]
    · rfl
    · rintro ⟨t, -, hm⟩
      exact h ((mem_blk1_2 t i).mp hm).1

end Cert.KernelIdeal.Hand

end
-- ==== Proof.KIVal2.lean ====
/-
  What the third pipeline of `KernelIdeal` leaves in the patches array: every patch `(hi, 23)` with `hi < 15` — the
  last column of patches but its last — holds the scaled strip, entry `(r, p)` of the patch the strip's entry
  `(256 * hi + r, p)` times the scale; every other entry is what the array held when the pipeline was entered.

  Point `t` of the 3-point grid reads rows `1280 * t‥` of the strip, all 768 columns, and writes patches
  `5 * t‥5 * t + 4` of patch column 23; the body's re-laying sends row `256 * a + r` of its block to row `r` of the
  block's patch `a`.
-/
import proofs.«112207_j51110110823149_2_alg».proof.Proof.KIBody2
import proofs.«112207_j51110110823149_2_alg».proof.Proof.KIVal0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The body's one store, whole, of the payload of its one whole load. -/
theorem out2_2_eq (x0 : Vec F S1280x768 .f32) : out2_2 x0 = k2_pay1 x0 := by
  unfold out2_2
  rw [View.canon_unit_zero hz4, View.ld_unit_zero hz2]

/-- The payload at patch `a` of the block, row `r`, position `p`: the block's entry `(256 * a + r, p)` times the scale. -/
theorem k2_pay1_apply (x0 : Vec F S1280x768 .f32) (a : Fin 5) (u : Fin 1) (r : Fin 256) (p : Fin 768) :
    k2_pay1 x0 (ix4 a u r p)
      = FloatOps.mulf (x0 (ix2 (⟨a.val * 256 + r.val, by have := a.isLt; have := r.isLt; omega⟩ : Fin 1280) p)) (Scalar.ofBits .f32 0x3B808081#32) := by
  unfold k2_pay1
  have hu : u.val = 0 := by have := u.isLt; omega
  rw [shapeCast_apply _ _ (ix4 a u r p) (ix3 a r p) (by
    rw [Shape.rowMajor_val_three, Shape.rowMajor_val_four]
    show (a.val * 256 + r.val) * 768 + p.val = ((a.val * 1 + u.val) * 256 + r.val) * 768 + p.val
    rw [hu]; omega)]
  rw [shapeCast_apply _ _ (ix3 a r p) (ix2 (⟨a.val * 256 + r.val, by have := a.isLt; have := r.isLt; omega⟩ : Fin 1280) p) (by
    rw [Shape.rowMajor_val_two, Shape.rowMajor_val_three]
    show (a.val * 256 + r.val) * 768 + p.val = (a.val * 256 + r.val) * 768 + p.val
    rfl)]
  rw [shapeCast_self]
  rfl

/-! ## Where point `t`'s blocks sit -/

/-- The input window's block index at point `t`. -/
theorem idx2_0 : ∀ (t : Fin cfg2.N) (a : Fin 2), win2_0.index t a = ![t.val, 0] a :=
  (by decide +kernel : ∀ (t : Fin grid2.N) (a : Fin 2), win2_0.index t a = ![t.val, 0] a)
/-- The output window's block index at point `t`. -/
theorem idx2_2 : ∀ (t : Fin cfg2.N) (a : Fin 4), win2_2.index t a = ![t.val, 23, 0, 0] a :=
  (by decide +kernel : ∀ (t : Fin grid2.N) (a : Fin 4), win2_2.index t a = ![t.val, 23, 0, 0] a)
/-- No block of the output window reaches past the array at a point of the grid. -/
theorem noclip2_2 : ∀ (t : Fin cfg2.N) (a : Fin 4), win2_2.clip (grid2.coords t) a = none :=
  (by decide +kernel : ∀ (t : Fin grid2.N) (a : Fin 4), win2_2.clip (grid2.coords t) a = none)

/-- What the third pipeline writes, as one function of the strip: patch `(hi, wi)`'s entry `(r, p)` is the strip's
    entry `(256 * hi + r, p)` times the scale (the position taken modulo the strip's extent, which changes nothing
    where the pipeline writes). -/
def G2 (cf : FVec F S3840x768 .f32) : FVec F S16x24x256x768 .f32 := fun i =>
  FloatOps.mulf (cf (ix2 (⟨((i 0).val * 256 + (i 2).val) % 3840, Nat.mod_lt _ (by decide)⟩ : Fin 3840)
      (⟨(i 3).val, (i 3).isLt⟩ : Fin 768))) (Scalar.ofBits .f32 0x3B808081#32)

/-- The input block at point `t`, at block position `(R, p)`: the strip at row `1280 * t + R`, column `p`. -/
theorem in2_apply (c : Dev nD) (t : Fin cfg2.N) (R : Fin 1280) (p : Fin 768) :
    iblk2 V c 0 t (ix2 R p)
      = V c main_v11 (ix2 (⟨t.val * 1280 + R.val, by have := t.isLt; have h : cfg2.N = 3 := N_2; have := R.isLt; omega⟩ : Fin 3840) p) := by
  unfold iblk2
  rw [View.read_apply]
  rw [cast_eq]
  refine congrArg (V c main_v11) (funext fun a => Fin.ext ?_)
  show ((win2_0.rect t).emb _ a : Nat) = _
  rw [Window.rect_emb_val, idx2_0]
  match a with
  | ⟨0, _⟩ => rfl
  | ⟨1, _⟩ => show 0 * 768 + p.val = p.val; omega

/-- What point `t` writes back is its block of `G2` of the strip. -/
theorem flushed2_2 (c : Dev nD) (t : Fin cfg2.N) :
    (dat2 V c).flushed 2 t = ((cfg2.win 2).blk t).view.read (Elt F) (G2 (V c main_v11)) := by
  funext y
  have hy : ∀ a, (y a).val < S5x1x256x768.size a := fun a => by
    have h : (y a).val < (win2_2.clip (grid2.coords t) a).extent (win2_2.size a) := (y a).isLt
    rw [noclip2_2 t a] at h; exact h
  have h0 : (y 0).val < 5 := hy 0
  have h1 : (y 1).val < 1 := hy 1
  have h2 : (y 2).val < 256 := hy 2
  have h3 : (y 3).val < 768 := hy 3
  have ht : t.val < 3 := by have := t.isLt; have h : cfg2.N = 3 := N_2; omega
  have hx : win2_2.xinj (grid2.coords t) y = ix4 (⟨(y 0).val, h0⟩ : Fin 5) (⟨(y 1).val, h1⟩ : Fin 1) (⟨(y 2).val, h2⟩ : Fin 256) (⟨(y 3).val, h3⟩ : Fin 768) :=
    funext fun a => by match a with | ⟨0, _⟩ => rfl | ⟨1, _⟩ => rfl | ⟨2, _⟩ => rfl | ⟨3, _⟩ => rfl
  have e : ∀ a, (((cfg2.win 2).blk t).view.emb y a : Nat) = win2_2.index t a * win2_2.size a + (y a).val :=
    fun a => Window.rect_emb_val win2_2 t y a
  have e0 : (((cfg2.win 2).blk t).view.emb y 0 : Nat) = t.val * 5 + (y 0).val := by rw [e 0, idx2_2]; rfl
  have e2 : (((cfg2.win 2).blk t).view.emb y 2 : Nat) = 0 * 256 + (y 2).val := by rw [e 2, idx2_2]; rfl
  have e3 : (((cfg2.win 2).blk t).view.emb y 3 : Nat) = 0 * 768 + (y 3).val := by rw [e 3, idx2_2]; rfl
  show (dat2 V c).after 2 t (win2_2.xinj (grid2.coords t) y) = _
  rw [after2_2, out2_2_eq, hx, k2_pay1_apply, in2_apply, View.read_apply, cast_eq]
  unfold G2
  refine congrArg (fun k => FloatOps.mulf (V c main_v11 k) (Scalar.ofBits .f32 0x3B808081#32)) (ix2_congr (Fin.ext ?_) (Fin.ext ?_))
  · show t.val * 1280 + ((y 0).val * 256 + (y 2).val)
      = ((((cfg2.win 2).blk t).view.emb y 0 : Nat) * 256 + (((cfg2.win 2).blk t).view.emb y 2 : Nat)) % 3840
    rw [e0, e2]; omega
  · show (y 3).val = (((cfg2.win 2).blk t).view.emb y 3 : Nat)
    rw [e3]; omega

/-- Point `t`'s output block covers patches `5 * t‥5 * t + 4` of patch column 23, whole. -/
theorem mem_blk2_2 (t : Fin cfg2.N) (i : S16x24x256x768.Idx) :
    i ∈ ((cfg2.win 2).blk t).view.set ↔ (t.val * 5 ≤ (i 0).val ∧ (i 0).val < t.val * 5 + 5) ∧ (i 1).val = 23 := by
  show i ∈ ((View.whole main_v12).slice (win2_2.rect t)).set ↔ _
  rw [View.set_slice_whole, Rect.mem_set_unit]
  have hx : ∀ a, win2_2.xsize (grid2.coords t) a = win2_2.size a := fun a => by unfold Window.xsize; rw [noclip2_2 t a]
  have hi2 : (i 2).val < 256 := (i 2).isLt
  have hi3 : (i 3).val < 768 := (i 3).isLt
  constructor
  · intro h
    have h0 := h 0; have h1 := h 1
    rw [hx, idx2_2] at h0 h1
    have h0' : t.val * 5 ≤ (i 0).val ∧ (i 0).val < t.val * 5 + 5 := h0
    have h1' : 23 * 1 ≤ (i 1).val ∧ (i 1).val < 23 * 1 + 1 := h1
    omega
  · intro h a
    rw [hx, idx2_2]
    match a with
    | ⟨0, _⟩ => exact (show t.val * 5 ≤ (i 0).val ∧ (i 0).val < t.val * 5 + 5 from h.1)
    | ⟨1, _⟩ => exact (show 23 * 1 ≤ (i 1).val ∧ (i 1).val < 23 * 1 + 1 from by omega)
    | ⟨2, _⟩ => exact (show 0 * 256 ≤ (i 2).val ∧ (i 2).val < 0 * 256 + 256 from by omega)
    | ⟨3, _⟩ => exact (show 0 * 768 ≤ (i 3).val ∧ (i 3).val < 0 * 768 + 768 from by omega)

/-- THE PATCHES ARRAY AFTER THE THIRD PIPELINE: the last column of patches but its last at the scaled strip, every
    other entry as entered. -/
theorem arr2 (c : Dev nD) (i : S16x24x256x768.Idx) :
    (dat2 V c).arrAt 2 cfg2.N i
      = if (i 0).val < 15 ∧ (i 1).val = 23 then G2 (V c main_v11) i else V c main_v12 i := by
  rw [(dat2 V c).arrAt_eq_piecewise 2 (G2 (V c main_v11)) (fun t _ => flushed2_2 V c t) i]
  have hN : cfg2.N = 3 := N_2
  have hi0 : (i 0).val < 16 := (i 0).isLt
  by_cases h : (i 0).val < 15 ∧ (i 1).val = 23
  · rw [if_pos h, if_pos]
    refine ⟨⟨(i 0).val / 5, by omega⟩, flush2_2 _, (mem_blk2_2 _ i).mpr ?_⟩
    show ((i 0).val / 5 * 5 ≤ (i 0).val ∧ (i 0).val < (i 0).val / 5 * 5 + 5) ∧ (i 1).val = 23
    omega
  · rw [if_neg h, if_neg]
    · rfl
    · rintro ⟨t, -, hm⟩
      have ht : t.val < 3 := by have := t.isLt; omega
      have := (mem_blk2_2 t i).mp hm
      omega

end Cert.KernelIdeal.Hand

end
-- ==== Proof.Spec.lean ====
/-
  The result both programs compute, as ONE function of the image, index by index.

  The image `x` is 4000 × 6000 × 3. Padded by reflection (the edge row and column not repeated) to 4096 × 6144 × 3,
  scaled by the constant 1/255 as a binary32 number, and cut into 16 × 24 patches of 256 × 256 pixels, patch
  `n = 24 * hi + wi` holds at pixel `(r, q)`, channel `ch`, the padded image's entry at row `256 * hi + r`, column
  `256 * wi + q`. A padded position `p` at or past the image's extent `H` reads the image at `2 * H - 2 - p`.
-/
import Idealize.ShloMosaic.Lib.ValueIdx

noncomputable section

namespace Cert.Patches

open Idealize.ShloMosaic Idealize.ShloMosaic.ValueIdx

/-- The image, and the patches. -/
abbrev Img : Shape := ⟨3, ![4000, 6000, 3]⟩
abbrev Pat : Shape := ⟨4, ![384, 256, 256, 3]⟩

/-- The image row that padded row `256 * (n / 24) + r` reads: itself inside the image, its mirror image about
    the last row past it. -/
def srcRow (n : Fin 384) (r : Fin 256) : Fin 4000 :=
  ⟨if n.val / 24 * 256 + r.val < 4000 then n.val / 24 * 256 + r.val else 7998 - (n.val / 24 * 256 + r.val), by
    have := n.isLt; have := r.isLt; split <;> omega⟩

/-- The image column that padded column `256 * (n % 24) + q` reads: itself inside the image, its mirror image
    about the last column past it. -/
def srcCol (n : Fin 384) (q : Fin 256) : Fin 6000 :=
  ⟨if n.val % 24 * 256 + q.val < 6000 then n.val % 24 * 256 + q.val else 11998 - (n.val % 24 * 256 + q.val), by
    have := n.isLt; have := q.isLt; split <;> omega⟩

/-- The scale, 1/255 rounded to binary32: the same word in both programs, never evaluated. -/
def scale : EReal := Ideal.ofBits .f32 0x3B808081#32

/-- One entry of the result, by its coordinates. -/
def specAt (x : Img.Idx → EReal) (n : Fin 384) (r q : Fin 256) (ch : Fin 3) : EReal :=
  x (ix3 (srcRow n r) (srcCol n q) ch) * scale

/-- The result as a function of the image. -/
def spec (x : Img.Idx → EReal) : Pat.Idx → EReal :=
  fun i => specAt x (i 0) (i 1) (i 2) (i 3)

theorem spec_apply (x : Img.Idx → EReal) (n : Fin 384) (r q : Fin 256) (ch : Fin 3) :
    spec x (ix4 n r q ch) = specAt x n r q ch := rfl

end Cert.Patches

end
-- ==== Proof.KIHostRead.lean ====
/-
  The three source arrays of the kernel program read at an index. Each is a chain of slices, flips, joins and one
  reshape of the image; each operation reads its operand at one index — a slice at the index shifted by its offsets,
  a flip at the mirrored coordinate, a join in the piece the coordinate falls in, the reshape at the same row-major
  position. Composed, the entry of a strip that patch `n`, pixel `(r, q)`, channel `ch` is cut from is the image at
  the reflected row and column of the target function.
-/
import proofs.«112207_j51110110823149_2_alg».proof.Proof.KIHost
import proofs.«112207_j51110110823149_2_alg».proof.Proof.Spec
import Idealize.ShloMosaic.Lib.Pipeline.Value
import Idealize.ShloMosaic.Lib.ValueLayout

noncomputable section

namespace Cert.KernelIdeal.Hand

open Cert.KernelIdeal Cert.Patches Idealize.ShloMosaic Idealize.ShloMosaic.ValueIdx

variable {α : Type}

/-! ## Flips and row slices, at rank three -/

/-- A flip of the rows reads the mirrored row. -/
theorem reverse_rows_apply {n0 n1 n2 : Nat} (y : (⟨3, ![n0, n1, n2]⟩ : Shape).Idx → α) (a : Fin n0) (b : Fin n1) (c : Fin n2) :
    Host.reverse [0] y (ix3 a b c) = y (ix3 a.rev b c) := by
  unfold Host.reverse
  refine congrArg y (funext fun d => ?_)
  match d with
  | ⟨0, _⟩ => exact if_pos (by simp [Fin.ext_iff])
  | ⟨1, _⟩ => exact if_neg (by simp [Fin.ext_iff])
  | ⟨2, _⟩ => exact if_neg (by simp [Fin.ext_iff])

/-- A flip of the columns reads the mirrored column. -/
theorem reverse_cols_apply {n0 n1 n2 : Nat} (y : (⟨3, ![n0, n1, n2]⟩ : Shape).Idx → α) (a : Fin n0) (b : Fin n1) (c : Fin n2) :
    Host.reverse [1] y (ix3 a b c) = y (ix3 a b.rev c) := by
  unfold Host.reverse
  refine congrArg y (funext fun d => ?_)
  match d with
  | ⟨0, _⟩ => exact if_neg (by simp [Fin.ext_iff])
  | ⟨1, _⟩ => exact if_pos (by simp [Fin.ext_iff])
  | ⟨2, _⟩ => exact if_neg (by simp [Fin.ext_iff])

/-- A rank-3 array cut along its rows from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## The target's reflected row and column, by case -/

theorem srcRow_val_inside (n : Fin 384) (r : Fin 256) (h : n.val / 24 * 256 + r.val < 4000) :
    (srcRow n r).val = n.val / 24 * 256 + r.val := by
  show (if n.val / 24 * 256 + r.val < 4000 then n.val / 24 * 256 + r.val else 7998 - (n.val / 24 * 256 + r.val)) = _
  rw [if_pos h]

theorem srcCol_val_inside (n : Fin 384) (q : Fin 256) (h : n.val % 24 * 256 + q.val < 6000) :
    (srcCol n q).val = n.val % 24 * 256 + q.val := by
  show (if n.val % 24 * 256 + q.val < 6000 then n.val % 24 * 256 + q.val else 11998 - (n.val % 24 * 256 + q.val)) = _
  rw [if_pos h]

variable {F : FTy → Type} [FloatOps F]

/-! ## The image with pixel column and channel merged -/

theorem flat_apply_spec (x : FVec F S4000x6000x3 .f32) (n : Fin 384) (hn : n.val / 24 < 15) (hw : n.val % 24 < 23)
    (r q : Fin 256) (ch : Fin 3) :
    flat x (ix2 (⟨n.val / 24 * 256 + r.val, by have := r.isLt; omega⟩ : Fin 4000)
        (⟨n.val % 24 * 768 + (q.val * 3 + ch.val), by have := q.isLt; have := ch.isLt; omega⟩ : Fin 18000))
      = x (ix3 (srcRow n r) (srcCol n q) ch) := by
  have hr := r.isLt; have hq := q.isLt; have hch := ch.isLt
  unfold flat
  exact shapeCast_apply _ _ _ (ix3 (srcRow n r) (srcCol n q) ch) (by
    rw [Shape.rowMajor_val_three, Shape.rowMajor_val_two]
    show ((srcRow n r).val * 6000 + (srcCol n q).val) * 3 + ch.val
      = (n.val / 24 * 256 + r.val) * 18000 + (n.val % 24 * 768 + (q.val * 3 + ch.val))
    rw [srcRow_val_inside n r (by omega), srcCol_val_inside n q (by omega)]
    omega)

/-! ## The strip of the last 256 padded rows -/

/-- Rows 3744‥3999 of the image, at row `i`: image row `3744 + i`. -/
theorem lastRows_apply (x : FVec F S4000x6000x3 .f32) (i : Fin 256) (l : Fin 6000) (ch : Fin 3) (k : Fin 4000)
    (hk : k.val = 3744 + i.val) : lastRows x (ix3 i l ch) = x (ix3 k l ch) := by
  unfold lastRows
  exact slice3_axis0_apply 3744 x _ i l ch k hk

/-- Padded row `3840 + r`, all 6000 columns: the image at the reflected row. -/
theorem rowStrip_apply (x : FVec F S4000x6000x3 .f32) (r : Fin 256) (l : Fin 6000) (ch : Fin 3) (k : Fin 4000)
    (hk : k.val = if 3840 + r.val < 4000 then 3840 + r.val else 7998 - (3840 + r.val)) :
    rowStrip x (ix3 r l ch) = x (ix3 k l ch) := by
  have hr := r.isLt
  unfold rowStrip
  refine (slice3_axis0_apply 96 (lastRowsPadded x) _ r l ch (⟨96 + r.val, by omega⟩ : Fin 352) rfl).trans ?_
  unfold lastRowsPadded
  by_cases h : r.val < 160
  · rw [if_pos (by omega)] at hk
    refine (concatenate_pair_apply_left (t := S352x6000x3) (s₁ := S256x6000x3) (s₂ := S96x6000x3) 0 _ _ _
      (ix3 (⟨96 + r.val, by omega⟩ : Fin 352) l ch) rfl (ix3 (⟨96 + r.val, by omega⟩ : Fin 256) l ch) (fun b => by
        match b with
        | ⟨0, _⟩ => rfl
        | ⟨1, _⟩ => rfl
        | ⟨2, _⟩ => rfl)).trans ?_
    exact lastRows_apply x _ l ch k (by show k.val = 3744 + (96 + r.val); omega)
  · rw [if_neg (by omega)] at hk
    refine (concatenate_pair_apply_right (t := S352x6000x3) (s₁ := S256x6000x3) (s₂ := S96x6000x3) 0 _ _ _
      (ix3 (⟨96 + r.val, by omega⟩ : Fin 352) l ch) rfl rfl (ix3 (⟨r.val - 160, by omega⟩ : Fin 96) l ch) (fun b hb => by
        match b with
        | ⟨0, _⟩ => exact absurd rfl hb
        | ⟨1, _⟩ => rfl
        | ⟨2, _⟩ => rfl) (by show r.val - 160 + 256 = 96 + r.val; omega)).trans ?_
    rw [reverse_rows_apply]
    refine (slice3_axis0_apply 159 (lastRows x) _ _ l ch (⟨414 - r.val, by omega⟩ : Fin 256)
      (by rw [Fin.val_rev]; show 414 - r.val = 159 + (96 - (r.val - 160 + 1)); omega)).trans ?_
    exact lastRows_apply x _ l ch k (by show k.val = 3744 + (414 - r.val); omega)

/-- The same padded on the right to 6144 columns: the image at the reflected row and column. -/
theorem rowStripPadded_apply (x : FVec F S4000x6000x3 .f32) (r : Fin 256) (c : Fin 6144) (ch : Fin 3) (k : Fin 4000) (l : Fin 6000)
    (hk : k.val = if 3840 + r.val < 4000 then 3840 + r.val else 7998 - (3840 + r.val))
    (hl : l.val = if c.val < 6000 then c.val else 11998 - c.val) :
    rowStripPadded x (ix3 r c ch) = x (ix3 k l ch) := by
  have hc := c.isLt
  refine Eq.trans ?_ (rowStrip_apply x r l ch k hk)
  unfold rowStripPadded
  by_cases h : c.val < 6000
  · rw [if_pos h] at hl
    exact concatenate_pair_apply_left (t := S256x6144x3) (s₁ := S256x6000x3) (s₂ := S256x144x3) 1 _ _ _
      (ix3 r c ch) rfl (ix3 r l ch) (fun b => by
        match b with
        | ⟨0, _⟩ => rfl
        | ⟨1, _⟩ => exact hl
        | ⟨2, _⟩ => rfl)
  · rw [if_neg h] at hl
    refine (concatenate_pair_apply_right (t := S256x6144x3) (s₁ := S256x6000x3) (s₂ := S256x144x3) 1 _ _ _
      (ix3 r c ch) rfl rfl (ix3 r (⟨c.val - 6000, by omega⟩ : Fin 144) ch) (fun b hb => by
        match b with
        | ⟨0, _⟩ => rfl
        | ⟨1, _⟩ => exact absurd rfl hb
        | ⟨2, _⟩ => rfl) (by show c.val - 6000 + 6000 = c.val; omega)).trans ?_
    rw [reverse_cols_apply]
    exact slice3_axis1_apply 5855 (rowStrip x) _ r _ ch l
      (by rw [Fin.val_rev]; show l.val = 5855 + (144 - (c.val - 6000 + 1)); omega)

theorem rowFlat_apply_spec (x : FVec F S4000x6000x3 .f32) (n : Fin 384) (hn : n.val / 24 = 15) (r q : Fin 256) (ch : Fin 3) :
    rowFlat x (ix2 r (⟨n.val % 24 * 768 + (q.val * 3 + ch.val), by have := q.isLt; have := ch.isLt; omega⟩ : Fin 18432))
      = x (ix3 (srcRow n r) (srcCol n q) ch) := by
  have hr := r.isLt; have hq := q.isLt; have hch := ch.isLt
  have e : n.val / 24 * 256 + r.val = 3840 + r.val := by omega
  unfold rowFlat
  refine (shapeCast_apply _ _ _ (ix3 r (⟨n.val % 24 * 256 + q.val, by omega⟩ : Fin 6144) ch) (by
    rw [Shape.rowMajor_val_three, Shape.rowMajor_val_two]
    show (r.val * 6144 + (n.val % 24 * 256 + q.val)) * 3 + ch.val
      = r.val * 18432 + (n.val % 24 * 768 + (q.val * 3 + ch.val))
    omega)).trans ?_
  exact rowStripPadded_apply x r _ ch (srcRow n r) (srcCol n q)
    (by
      show (if n.val / 24 * 256 + r.val < 4000 then n.val / 24 * 256 + r.val else 7998 - (n.val / 24 * 256 + r.val)) = _
      rw [e])
    rfl

/-! ## The strip of the last 256 padded columns -/

/-- Columns 5744‥5999 of the first 3840 rows, at `(R, t)`: the image at `(R, 5744 + t)`. -/
theorem lastCols_apply (x : FVec F S4000x6000x3 .f32) (R : Fin 3840) (t : Fin 256) (ch : Fin 3) (k : Fin 4000) (l : Fin 6000)
    (hk : k.val = R.val) (hl : l.val = 5744 + t.val) : lastCols x (ix3 R t ch) = x (ix3 k l ch) := by
  unfold lastCols
  exact extractStridedSlice_apply _ _ _ _ _ (fun ax => by
    match ax with
    | ⟨0, _⟩ => exact hk.trans (Nat.zero_add _).symm
    | ⟨1, _⟩ => exact hl
    | ⟨2, _⟩ => exact (Nat.zero_add _).symm)

/-- Padded column `5888 + q` of the first 3840 rows: the image at the reflected column. -/
theorem colStrip_apply (x : FVec F S4000x6000x3 .f32) (R : Fin 3840) (q : Fin 256) (ch : Fin 3) (k : Fin 4000) (l : Fin 6000)
    (hk : k.val = R.val) (hl : l.val = if 5888 + q.val < 6000 then 5888 + q.val else 11998 - (5888 + q.val)) :
    colStrip x (ix3 R q ch) = x (ix3 k l ch) := by
  have hq := q.isLt
  unfold colStrip
  refine (slice3_axis1_apply 144 (lastColsPadded x) _ R q ch (⟨144 + q.val, by omega⟩ : Fin 400) rfl).trans ?_
  unfold lastColsPadded
  by_cases h : q.val < 112
  · rw [if_pos (by omega)] at hl
    refine (concatenate_pair_apply_left (t := S3840x400x3) (s₁ := S3840x256x3) (s₂ := S3840x144x3) 1 _ _ _
      (ix3 R (⟨144 + q.val, by omega⟩ : Fin 400) ch) rfl (ix3 R (⟨144 + q.val, by omega⟩ : Fin 256) ch) (fun b => by
        match b with
        | ⟨0, _⟩ => rfl
        | ⟨1, _⟩ => rfl
        | ⟨2, _⟩ => rfl)).trans ?_
    exact lastCols_apply x R _ ch k l hk (by show l.val = 5744 + (144 + q.val); omega)
  · rw [if_neg (by omega)] at hl
    refine (concatenate_pair_apply_right (t := S3840x400x3) (s₁ := S3840x256x3) (s₂ := S3840x144x3) 1 _ _ _
      (ix3 R (⟨144 + q.val, by omega⟩ : Fin 400) ch) rfl rfl (ix3 R (⟨q.val - 112, by omega⟩ : Fin 144) ch) (fun b hb => by
        match b with
        | ⟨0, _⟩ => rfl
        | ⟨1, _⟩ => exact absurd rfl hb
        | ⟨2, _⟩ => rfl) (by show q.val - 112 + 256 = 144 + q.val; omega)).trans ?_
    rw [reverse_cols_apply]
    refine (slice3_axis1_apply 111 (lastCols x) _ R _ ch (⟨366 - q.val, by omega⟩ : Fin 256)
      (by rw [Fin.val_rev]; show 366 - q.val = 111 + (144 - (q.val - 112 + 1)); omega)).trans ?_
    exact lastCols_apply x R _ ch k l hk (by show l.val = 5744 + (366 - q.val); omega)

theorem colFlat_apply_spec (x : FVec F S4000x6000x3 .f32) (n : Fin 384) (hn : n.val / 24 < 15) (hw : n.val % 24 = 23)
    (r q : Fin 256) (ch : Fin 3) :
    colFlat x (ix2 (⟨n.val / 24 * 256 + r.val, by have := r.isLt; omega⟩ : Fin 3840)
        (⟨q.val * 3 + ch.val, by have := q.isLt; have := ch.isLt; omega⟩ : Fin 768))
      = x (ix3 (srcRow n r) (srcCol n q) ch) := by
  have hr := r.isLt; have hq := q.isLt; have hch := ch.isLt
  have e : n.val % 24 * 256 + q.val = 5888 + q.val := by omega
  unfold colFlat
  refine (shapeCast_apply _ _ _ (ix3 (⟨n.val / 24 * 256 + r.val, by omega⟩ : Fin 3840) q ch) (by
    rw [Shape.rowMajor_val_three, Shape.rowMajor_val_two]
    show ((n.val / 24 * 256 + r.val) * 256 + q.val) * 3 + ch.val
      = (n.val / 24 * 256 + r.val) * 768 + (q.val * 3 + ch.val)
    omega)).trans ?_
  exact colStrip_apply x _ q ch (srcRow n r) (srcCol n q) (srcRow_val_inside n r (by omega))
    (by
      show (if n.val % 24 * 256 + q.val < 6000 then n.val % 24 * 256 + q.val else 11998 - (n.val % 24 * 256 + q.val)) = _
      rw [e])

end Cert.KernelIdeal.Hand

end
-- ==== Proof.KIValue.lean ====
/-
  The result of `KernelIdeal`'s run, as one function of the image: every entry of the 384 patches is the image's
  entry at the reflected position, times the scale.

  Patch `n = 24 * hi + wi` lies in exactly one of three families. For `hi < 15` and `wi < 23` the first pipeline wrote it
  from the flattened image and neither later pipeline touched it; for `hi = 15` the second pipeline wrote it from the
  strip of the last padded rows, over whatever the first had left, and the third did not touch it; for `hi < 15` and
  `wi = 23` the third pipeline wrote it from the strip of the last padded columns. In each family the source strip, read
  at the patch entry's position, is the image at the row and column the reflection names.
-/
import proofs.«112207_j51110110823149_2_alg».proof.Proof.KIChain
import proofs.«112207_j51110110823149_2_alg».proof.Proof.KIVal0
import proofs.«112207_j51110110823149_2_alg».proof.Proof.KIVal1
import proofs.«112207_j51110110823149_2_alg».proof.Proof.KIVal2
import proofs.«112207_j51110110823149_2_alg».proof.Proof.KIHostRead
import proofs.«112207_j51110110823149_2_alg».proof.Proof.Spec

set_option maxRecDepth 16384

noncomputable section

namespace Cert.KernelIdeal.Hand

open Cert.KernelIdeal Cert.KernelIdeal.Gen Cert.Patches
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What the first pipeline left in the patches array. -/
theorem W2_v1_apply (c : Dev nD) (i : S16x24x256x768.Idx) :
    W2 m ρ c (Proc.devRef .tc main_v1) i
      = if (i 0).val < 15 ∧ (i 1).val < 23 then G0 (flat (img m c)) i else W1 m ρ c (Proc.devRef .tc main_v1) i := by
  rw [show W2 m ρ c (Proc.devRef .tc main_v1) = (dat0 (U1 m ρ) c).arrAt 1 cfg0.N from W2_arr m ρ c 1, arr0]
  rw [show U1 m ρ c main_v0 = flat (img m c) from W1_v0 m ρ c]

/-- What the second pipeline left. -/
theorem W8_v7_apply (c : Dev nD) (i : S16x24x256x768.Idx) :
    W8 m ρ c (Proc.devRef .tc main_v7) i
      = if (i 0).val = 15 then G1 (rowFlat (img m c)) i else W2 m ρ c (Proc.devRef .tc main_v1) i := by
  rw [show W8 m ρ c (Proc.devRef .tc main_v7) = (dat1 (U7 m ρ) c).arrAt 2 cfg1.N from W8_arr m ρ c 2, arr1]
  rw [show U7 m ρ c main_v6 = rowFlat (img m c) from W7_v6 m ρ c,
    show U7 m ρ c main_v7 = W2 m ρ c (Proc.devRef .tc main_v1) from W7_v7 m ρ c]

/-- What the third pipeline left. -/
theorem W12_v12_apply (c : Dev nD) (i : S16x24x256x768.Idx) :
    W12 m ρ c (Proc.devRef .tc main_v12) i
      = if (i 0).val < 15 ∧ (i 1).val = 23 then G2 (colFlat (img m c)) i else W8 m ρ c (Proc.devRef .tc main_v7) i := by
  rw [show W12 m ρ c (Proc.devRef .tc main_v12) = (dat2 (U11 m ρ) c).arrAt 2 cfg2.N from W12_arr m ρ c 2, arr2]
  rw [show U11 m ρ c main_v11 = colFlat (img m c) from W11_v11 m ρ c,
    show U11 m ρ c main_v12 = W8 m ρ c (Proc.devRef .tc main_v7) from W11_v12 m ρ c]

/-- THE RESULT: the 384 patches of the reflected, scaled image. -/
theorem result_eq (c : Dev nD) : W13 m ρ c (Proc.devRef .tc main_v13) = Cert.Patches.spec (img m c) := by
  funext i
  obtain ⟨n, r, q, ch, rfl⟩ : ∃ (n : Fin 384) (r q : Fin 256) (ch : Fin 3), i = ix4 n r q ch := ⟨i 0, i 1, i 2, i 3, eq_ix4 i⟩
  have hn := n.isLt; have hr := r.isLt; have hq := q.isLt; have hch := ch.isLt
  rw [W13_v13, spec_apply]
  rw [shapeCast_apply _ _ (ix4 n r q ch)
    (ix4 (⟨n.val / 24, by omega⟩ : Fin 16) (⟨n.val % 24, by omega⟩ : Fin 24) r (⟨q.val * 3 + ch.val, by omega⟩ : Fin 768)) (by
      rw [Shape.rowMajor_val_four, Shape.rowMajor_val_four]
      show ((n.val / 24 * 24 + n.val % 24) * 256 + r.val) * 768 + (q.val * 3 + ch.val) = ((n.val * 256 + r.val) * 256 + q.val) * 3 + ch.val
      have : n.val / 24 * 24 + n.val % 24 = n.val := by omega
      rw [this]; ring)]
  rw [W12_v12_apply]
  unfold specAt scale
  by_cases hC : n.val / 24 < 15 ∧ n.val % 24 = 23
  · rw [if_pos hC]
    unfold G2
    rw [← colFlat_apply_spec (img m c) n hC.1 hC.2 r q ch]
    refine congrArg (fun k => colFlat (img m c) k * Ideal.ofBits .f32 0x3B808081#32) (ix2_congr (Fin.ext ?_) (Fin.ext ?_))
    · show (n.val / 24 * 256 + r.val) % 3840 = n.val / 24 * 256 + r.val
      omega
    · rfl
  · rw [if_neg hC, W8_v7_apply]
    by_cases hB : n.val / 24 = 15
    · rw [if_pos hB]
      unfold G1
      rw [← rowFlat_apply_spec (img m c) n hB r q ch]
      refine congrArg (fun k => rowFlat (img m c) k * Ideal.ofBits .f32 0x3B808081#32) (ix2_congr (Fin.ext ?_) (Fin.ext ?_))
      · rfl
      · show (n.val % 24 * 768 + (q.val * 3 + ch.val)) % 18432 = n.val % 24 * 768 + (q.val * 3 + ch.val)
        omega
    · rw [if_neg hB, W2_v1_apply]
      have hA : n.val / 24 < 15 ∧ n.val % 24 < 23 := by omega
      rw [if_pos hA]
      unfold G0
      rw [← flat_apply_spec (img m c) n hA.1 hA.2 r q ch]
      refine congrArg (fun k => flat (img m c) k * Ideal.ofBits .f32 0x3B808081#32) (ix2_congr (Fin.ext ?_) (Fin.ext ?_))
      · show (n.val / 24 * 256 + r.val) % 4000 = n.val / 24 * 256 + r.val
        omega
      · show (n.val % 24 * 768 + (q.val * 3 + ch.val)) % 18000 = n.val % 24 * 768 + (q.val * 3 + ch.val)
        omega

/-- The run with its result named: every weakly fair execution terminates, nothing faults, the result array ends
    at the patches of the reflected, scaled image and the image ends as launched. -/
theorem run_spec : θ_run (defs (F := Ideal)) (onTc (τ := τ) (main (F := Ideal))) ⟨m, fun _ => 0, ρ⟩ (fun r => ∀ c : Dev nD,
      r.2.mem ((c.tc : Thread nD τ).loc main_v13) = Cert.Patches.spec (m ((c.tc : Thread nD τ).loc main_arg0))
      ∧ r.2.mem ((c.tc : Thread nD τ).loc main_arg0) = m ((c.tc : Thread nD τ).loc main_arg0)) :=
  (θ_run defs _ _).mono (fun _ h c =>
      ⟨(h c _ (mem_uc main_v13 (by decide))).trans (result_eq m ρ c),
       (h c _ (mem_uc main_arg0 (by decide))).trans (W13_main_arg0 m ρ c)⟩) (run_all m ρ)

end Cert.KernelIdeal.Hand

end
-- ==== Proof.RefRun.lean ====
/-
  The reference program's run, read back. Its @main calls a padding function, which calls two flips; each call
  is the callee's operations on the call's own buffers, so @main is one straight line of seventeen operations:
  the scalar zero; three row slices, the flip of the last rows, the rows joined below the image; three column
  slices, the flip of the last columns, the columns joined to the right; the scale constant, its broadcast, the
  product; the cut into patches (a reshape, a transpose, a reshape). The result buffer ends at the composed term
  of the image, the image unchanged.
-/
import proofs.«112207_j51110110823149_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The image with its last 96 rows but one mirrored below it: 4096 rows. -/
def rows (x : FVec F S4000x6000x3 .f32) : FVec F S4096x6000x3 .f32 :=
  concatenate S4096x6000x3 0
    [⟨S4000x6000x3, x⟩,
     ⟨S96x6000x3, Host.reverse [0] (extractStridedSlice S96x6000x3 ![3903, 0, 0] x slices_S4000x6000x3_S96x6000x3_3903_0_0)⟩]
    concatenates_S4000x6000x3_S96x6000x3_S4096x6000x3_d0

/-- That with its last 144 columns but one mirrored to its right: 4096 × 6144. -/
def padded (x : FVec F S4000x6000x3 .f32) : FVec F S4096x6144x3 .f32 :=
  concatenate S4096x6144x3 1
    [⟨S4096x6000x3, rows x⟩,
     ⟨S4096x144x3, Host.reverse [1] (extractStridedSlice S4096x144x3 ![0, 5855, 0] (rows x) slices_S4096x6000x3_S4096x144x3_0_5855_0)⟩]
    concatenates_S4096x6000x3_S4096x144x3_S4096x6144x3_d1

/-- The padded image times the scale constant. -/
def scaled (x : FVec F S4000x6000x3 .f32) : FVec F S4096x6144x3 .f32 :=
  mulf (padded x) (broadcastInDim S4096x6144x3 ![] bcast_S_S4096x6144x3 (constant S_ .f32 0x3B808081#32))

/-- The scaled image cut into patches. -/
def out (x : FVec F S4000x6000x3 .f32) : FVec F S384x256x256x3 .f32 :=
  shapeCast S384x256x256x3
    (transpose S16x24x256x256x3 [0, 2, 1, 3, 4]
      (shapeCast S16x256x24x256x3 (scaled x) shapeCasts_S4096x6144x3_S16x256x24x256x3)
      transposes_S16x256x24x256x3_S16x24x256x256x3_0_2_1_3_4)
    shapeCasts_S16x24x256x256x3_S384x256x256x3

/-- @main's seventeen operations in order, the calls unfolded. -/
abbrev ops : List (HloOp τ sig (Elt F)) :=
  [ nullary main_c (constantI S_ 32 0#32),
    TRef.unary (Tx := ⟨S4000x6000x3, .f32⟩) (.of main_arg0) main_call0.v0 (extractStridedSlice S1x6000x3 ![0, 0, 0] · slices_S4000x6000x3_S1x6000x3_0_0_0),
    TRef.unary (Tx := ⟨S4000x6000x3, .f32⟩) (.of main_arg0) main_call0.v1 (extractStridedSlice S1x6000x3 ![3999, 0, 0] · slices_S4000x6000x3_S1x6000x3_3999_0_0),
    TRef.unary (Tx := ⟨S4000x6000x3, .f32⟩) (.of main_arg0) main_call0.v2 (extractStridedSlice S96x6000x3 ![3903, 0, 0] · slices_S4000x6000x3_S96x6000x3_3903_0_0),
    TRef.unary main_call0.v2 main_call0.call0.v0 (Host.reverse [0]),
    TRef.binary (Ta := ⟨S4000x6000x3, .f32⟩) (.of main_arg0) main_call0.call0.v0 main_call0.v4 (fun a b => concatenate S4096x6000x3 0 [⟨S4000x6000x3, a⟩, ⟨S96x6000x3, b⟩] concatenates_S4000x6000x3_S96x6000x3_S4096x6000x3_d0),
    TRef.unary main_call0.v4 main_call0.v5 (extractStridedSlice S4096x1x3 ![0, 0, 0] · slices_S4096x6000x3_S4096x1x3_0_0_0),
    TRef.unary main_call0.v4 main_call0.v6 (extractStridedSlice S4096x1x3 ![0, 5999, 0] · slices_S4096x6000x3_S4096x1x3_0_5999_0),
    TRef.unary main_call0.v4 main_call0.v7 (extractStridedSlice S4096x144x3 ![0, 5855, 0] · slices_S4096x6000x3_S4096x144x3_0_5855_0),
    TRef.unary main_call0.v7 main_call0.call1.v0 (Host.reverse [1]),
    TRef.binary main_call0.v4 main_call0.call1.v0 main_call0.v9 (fun a b => concatenate S4096x6144x3 1 [⟨S4096x6000x3, a⟩, ⟨S4096x144x3, b⟩] concatenates_S4096x6000x3_S4096x144x3_S4096x6144x3_d1),
    nullary main_cst (constant S_ .f32 0x3B808081#32),
    unary main_cst main_v1 (broadcastInDim S4096x6144x3 ![] bcast_S_S4096x6144x3 : (⟨S_, .f32⟩ : BufTy).Contents (Elt F) → (⟨S4096x6144x3, .f32⟩ : BufTy).Contents (Elt F)),
    binary main_v0 main_v1 main_v2 (mulf : (⟨S4096x6144x3, .f32⟩ : BufTy).Contents (Elt F) → (⟨S4096x6144x3, .f32⟩ : BufTy).Contents (Elt F) → (⟨S4096x6144x3, .f32⟩ : BufTy).Contents (Elt F)),
    reshape main_v2 main_v3 rfl shapeCasts_S4096x6144x3_S16x256x24x256x3,
    unary main_v3 main_v4 ((transpose S16x24x256x256x3 [0, 2, 1, 3, 4] · transposes_S16x256x24x256x3_S16x24x256x256x3_0_2_1_3_4) : (⟨S16x256x24x256x3, .f32⟩ : BufTy).Contents (Elt F) → (⟨S16x24x256x256x3, .f32⟩ : BufTy).Contents (Elt F)),
    reshape main_v4 main_v5 rfl shapeCasts_S16x24x256x256x3_S384x256x256x3 ]

set_option maxRecDepth 1024 in
/-- @main is that straight line: the functions unfolded at their calls, sequencing reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., unary_bufs_sub .., unary_bufs_sub .., binary_bufs_sub ..,
    nullary_bufs_sub .., unary_bufs_sub .., binary_bufs_sub .., reshape_bufs_sub .., unary_bufs_sub .., reshape_bufs_sub ..⟩

/-- The fold at the result buffer is the composed term of the image. -/
theorem out_eq (V : Valuation τ sig (Elt F)) :
    after ops V (main_v5 : DevRef τ sig) = out (V (main_arg0 : DevRef τ sig)) := by
  after_results_simp
  rfl

/-- The fold leaves the image as it was. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result at the composed term of the image and the image unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = out (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.Hand

end
-- ==== Proof.RefRead.lean ====
/-
  The reference's composed term read at an index. Each operation of the chain reads its operand at one index: a
  slice at the index shifted by its offsets, a flip at the mirrored coordinate, a join in the piece the coordinate
  falls in, the broadcast scalar everywhere, the product pointwise, a reshape at the same row-major position, the
  transpose with two coordinates exchanged. Composed: patch `n`, pixel `(r, q)`, channel `ch` is the image at the
  reflected row and column, times the scale.
-/
import proofs.«112207_j51110110823149_2_alg».proof.Proof.RefRun
import proofs.«112207_j51110110823149_2_alg».proof.Proof.Spec
import Idealize.ShloMosaic.Lib.Pipeline.Value
import Idealize.ShloMosaic.Lib.ValueLayout
import Idealize.ShloMosaic.Lib.IdealHost

noncomputable section

namespace Cert.ReferenceIdeal.Hand

open Cert.ReferenceIdeal Cert.ReferenceIdeal.Gen Idealize.ShloMosaic Idealize.ShloMosaic.ValueIdx

variable {α : Type}

/-! ## The two flips -/

/-- A flip of the rows reads the mirrored row. -/
theorem reverse_rows_apply {n0 n1 n2 : Nat} (y : (⟨3, ![n0, n1, n2]⟩ : Shape).Idx → α) (a : Fin n0) (b : Fin n1) (c : Fin n2) :
    Host.reverse [0] y (ix3 a b c) = y (ix3 a.rev b c) := by
  unfold Host.reverse
  refine congrArg y (funext fun d => ?_)
  match d with
  | ⟨0, _⟩ => exact if_pos (by simp [Fin.ext_iff])
  | ⟨1, _⟩ => exact if_neg (by simp [Fin.ext_iff])
  | ⟨2, _⟩ => exact if_neg (by simp [Fin.ext_iff])

/-- A flip of the columns reads the mirrored column. -/
theorem reverse_cols_apply {n0 n1 n2 : Nat} (y : (⟨3, ![n0, n1, n2]⟩ : Shape).Idx → α) (a : Fin n0) (b : Fin n1) (c : Fin n2) :
    Host.reverse [1] y (ix3 a b c) = y (ix3 a b.rev c) := by
  unfold Host.reverse
  refine congrArg y (funext fun d => ?_)
  match d with
  | ⟨0, _⟩ => exact if_neg (by simp [Fin.ext_iff])
  | ⟨1, _⟩ => exact if_pos (by simp [Fin.ext_iff])
  | ⟨2, _⟩ => exact if_neg (by simp [Fin.ext_iff])

/-! ## The padding -/

/-- The image row a padded row reads: itself inside the image, its mirror image about the last row past it. -/
def rowSrc (p : Fin 4096) : Fin 4000 :=
  ⟨if p.val < 4000 then p.val else 7998 - p.val, by have := p.isLt; split <;> omega⟩

/-- The image column a padded column reads. -/
def colSrc (c : Fin 6144) : Fin 6000 :=
  ⟨if c.val < 6000 then c.val else 11998 - c.val, by have := c.isLt; split <;> omega⟩

variable {F : FTy → Type} [FloatOps F]

/-- The last 96 rows but one, at row `i`: image row `3903 + i`. -/
theorem rowBand_apply (x : FVec F S4000x6000x3 .f32) (i : Fin 96) (c : Fin 6000) (ch : Fin 3) (k : Fin 4000)
    (hk : k.val = 3903 + i.val) :
    extractStridedSlice S96x6000x3 ![3903, 0, 0] x slices_S4000x6000x3_S96x6000x3_3903_0_0 (ix3 i c ch) = x (ix3 k c ch) :=
  extractStridedSlice_apply _ _ _ _ _ (fun ax => by
    match ax with
    | ⟨0, _⟩ => exact hk
    | ⟨1, _⟩ => exact (Nat.zero_add _).symm
    | ⟨2, _⟩ => exact (Nat.zero_add _).symm)

/-- The image with its rows mirrored below it, at a row inside the image. -/
theorem rows_apply_inside (x : FVec F S4000x6000x3 .f32) (p : Fin 4096) (c : Fin 6000) (ch : Fin 3) (k : Fin 4000)
    (hk : k.val = p.val) : rows x (ix3 p c ch) = x (ix3 k c ch) := by
  unfold rows
  exact concatenate_pair_apply_left (t := S4096x6000x3) (s₁ := S4000x6000x3) (s₂ := S96x6000x3) 0 _ _ _ (ix3 p c ch) rfl (ix3 k c ch) (fun b => by
    match b with
    | ⟨0, _⟩ => exact hk
    | ⟨1, _⟩ => rfl
    | ⟨2, _⟩ => rfl)

/-- The same at a row past the image: the mirrored band. -/
theorem rows_apply_past (x : FVec F S4000x6000x3 .f32) (p : Fin 4096) (c : Fin 6000) (ch : Fin 3) (k : Fin 4000)
    (hp : 4000 ≤ p.val) (hk : k.val = 7998 - p.val) : rows x (ix3 p c ch) = x (ix3 k c ch) := by
  have hlt := p.isLt
  unfold rows
  refine (concatenate_pair_apply_right (t := S4096x6000x3) (s₁ := S4000x6000x3) (s₂ := S96x6000x3) 0 _ _ _ (ix3 p c ch) rfl rfl (ix3 (⟨p.val - 4000, by omega⟩ : Fin 96) c ch) (fun b hb => by
    match b with
    | ⟨0, _⟩ => exact absurd rfl hb
    | ⟨1, _⟩ => rfl
    | ⟨2, _⟩ => rfl) (by show p.val - 4000 + 4000 = p.val; omega)).trans ?_
  rw [reverse_rows_apply]
  exact rowBand_apply x _ c ch k (by rw [Fin.val_rev]; show k.val = 3903 + (96 - (p.val - 4000 + 1)); omega)

/-- The image with its rows mirrored below it reads the reflected row. -/
theorem rows_apply (x : FVec F S4000x6000x3 .f32) (p : Fin 4096) (c : Fin 6000) (ch : Fin 3) :
    rows x (ix3 p c ch) = x (ix3 (rowSrc p) c ch) := by
  by_cases hp : p.val < 4000
  · exact rows_apply_inside x p c ch _ (by show (if p.val < 4000 then p.val else 7998 - p.val) = p.val; rw [if_pos hp])
  · exact rows_apply_past x p c ch _ (by omega) (by show (if p.val < 4000 then p.val else 7998 - p.val) = 7998 - p.val; rw [if_neg hp])

/-- With the columns mirrored to the right too, at a column inside the image. -/
theorem padded_apply_inside (x : FVec F S4000x6000x3 .f32) (p : Fin 4096) (c : Fin 6144) (ch : Fin 3) (k : Fin 6000)
    (hk : k.val = c.val) : padded x (ix3 p c ch) = rows x (ix3 p k ch) := by
  unfold padded
  exact concatenate_pair_apply_left (t := S4096x6144x3) (s₁ := S4096x6000x3) (s₂ := S4096x144x3) 1 _ _ _ (ix3 p c ch) rfl (ix3 p k ch) (fun b => by
    match b with
    | ⟨0, _⟩ => rfl
    | ⟨1, _⟩ => exact hk
    | ⟨2, _⟩ => rfl)

/-- The same at a column past the image: the mirrored band. -/
theorem padded_apply_past (x : FVec F S4000x6000x3 .f32) (p : Fin 4096) (c : Fin 6144) (ch : Fin 3) (k : Fin 6000)
    (hc : 6000 ≤ c.val) (hk : k.val = 11998 - c.val) : padded x (ix3 p c ch) = rows x (ix3 p k ch) := by
  have hlt := c.isLt
  unfold padded
  refine (concatenate_pair_apply_right (t := S4096x6144x3) (s₁ := S4096x6000x3) (s₂ := S4096x144x3) 1 _ _ _ (ix3 p c ch) rfl rfl (ix3 p (⟨c.val - 6000, by omega⟩ : Fin 144) ch) (fun b hb => by
    match b with
    | ⟨0, _⟩ => rfl
    | ⟨1, _⟩ => exact absurd rfl hb
    | ⟨2, _⟩ => rfl) (by show c.val - 6000 + 6000 = c.val; omega)).trans ?_
  rw [reverse_cols_apply]
  exact slice3_axis1_apply 5855 (rows x) slices_S4096x6000x3_S4096x144x3_0_5855_0 p _ ch k
    (by rw [Fin.val_rev]; show k.val = 5855 + (144 - (c.val - 6000 + 1)); omega)

/-- The padded image reads the rows-padded one at the reflected column. -/
theorem padded_apply (x : FVec F S4000x6000x3 .f32) (p : Fin 4096) (c : Fin 6144) (ch : Fin 3) :
    padded x (ix3 p c ch) = x (ix3 (rowSrc p) (colSrc c) ch) := by
  refine Eq.trans ?_ (rows_apply x p (colSrc c) ch)
  by_cases hc : c.val < 6000
  · exact padded_apply_inside x p c ch _ (by show (if c.val < 6000 then c.val else 11998 - c.val) = c.val; rw [if_pos hc])
  · exact padded_apply_past x p c ch _ (by omega) (by show (if c.val < 6000 then c.val else 11998 - c.val) = 11998 - c.val; rw [if_neg hc])

/-! ## The cut into patches -/

/-- Patch `n`, pixel `(r, q)` is the scaled image's entry at row `256 (n / 24) + r`, column `256 (n % 24) + q`. -/
theorem out_apply (x : FVec F S4000x6000x3 .f32) (n : Fin 384) (r q : Fin 256) (ch : Fin 3) (p : Fin 4096) (c : Fin 6144)
    (hp : p.val = n.val / 24 * 256 + r.val) (hc : c.val = n.val % 24 * 256 + q.val) :
    out x (ix4 n r q ch) = scaled x (ix3 p c ch) := by
  have hn := n.isLt; have hr := r.isLt; have hq := q.isLt; have hch := ch.isLt
  unfold out
  refine (shapeCast_apply _ _ (ix4 n r q ch)
    (ix5 (⟨n.val / 24, by omega⟩ : Fin 16) (⟨n.val % 24, by omega⟩ : Fin 24) r q ch) (by
      rw [Shape.rowMajor_val_five, Shape.rowMajor_val_four]
      show ((((n.val / 24) * 24 + n.val % 24) * 256 + r.val) * 256 + q.val) * 3 + ch.val
        = ((n.val * 256 + r.val) * 256 + q.val) * 3 + ch.val
      omega)).trans ?_
  refine (transpose_apply _ _ _ _
    (ix5 (⟨n.val / 24, by omega⟩ : Fin 16) r (⟨n.val % 24, by omega⟩ : Fin 24) q ch) (fun b => by
      match b with
      | ⟨0, _⟩ => rfl
      | ⟨1, _⟩ => rfl
      | ⟨2, _⟩ => rfl
      | ⟨3, _⟩ => rfl
      | ⟨4, _⟩ => rfl)).trans ?_
  exact shapeCast_apply _ _ _ (ix3 p c ch) (by
    rw [Shape.rowMajor_val_three, Shape.rowMajor_val_five]
    show (p.val * 6144 + c.val) * 3 + ch.val
      = ((((n.val / 24) * 256 + r.val) * 24 + n.val % 24) * 256 + q.val) * 3 + ch.val
    omega)

end Cert.ReferenceIdeal.Hand

end
-- ==== Proof.RefSpec.lean ====
/-
  The reference computes the patches: its composed term, read at every index, is the target function of the image,
  so every run of it ends with the result buffer at that function of the image it was launched with.
-/
import proofs.«112207_j51110110823149_2_alg».proof.Proof.RefRead

noncomputable section

namespace Cert.ReferenceIdeal.Hand

open Cert.ReferenceIdeal Cert.ReferenceIdeal.Gen Idealize.ShloMosaic Idealize.ShloMosaic.ValueIdx Idealize.ShloMosaic.TcCoe
  Idealize.SL.Sem Idealize.ShloMosaic.StableHlo

/-- The scaled image is the padded one times the scale, entry by entry. -/
theorem scaled_apply (x : FVec Ideal S4000x6000x3 .f32) (p : Fin 4096) (c : Fin 6144) (ch : Fin 3) :
    scaled x (ix3 p c ch) = padded x (ix3 p c ch) * Cert.Patches.scale := by
  unfold scaled
  rw [mulf_apply, broadcastInDim_scalar_apply, constant_apply]
  rfl

/-- One entry of the reference's result is the target's. -/
theorem out_apply_spec (x : FVec Ideal S4000x6000x3 .f32) (n : Fin 384) (r q : Fin 256) (ch : Fin 3) :
    out x (ix4 n r q ch) = Cert.Patches.specAt x n r q ch := by
  have hn := n.isLt; have hr := r.isLt; have hq := q.isLt
  rw [out_apply x n r q ch (⟨n.val / 24 * 256 + r.val, by omega⟩ : Fin 4096) (⟨n.val % 24 * 256 + q.val, by omega⟩ : Fin 6144) rfl rfl,
    scaled_apply, padded_apply]
  rfl

/-- The reference's result is the target function of the image. -/
theorem out_eq_spec (x : FVec Ideal S4000x6000x3 .f32) : out x = Cert.Patches.spec x := by
  funext i
  obtain ⟨n, r, q, ch, rfl⟩ : ∃ n r q ch, i = ix4 n r q ch := ⟨_, _, _, _, eq_ix4 i⟩
  exact out_apply_spec x n r q ch

/-- At the ideal values, from any memory with zero counters: every weakly fair execution of the reference terminates
    with the result buffer at the target function of the image it was launched with, and the image unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v5) = Cert.Patches.spec (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run _ _ _).mono (fun _ h c => ⟨(h c).1.trans (out_eq_spec _), (h c).2⟩) (run m ρ)

end Cert.ReferenceIdeal.Hand

end
-- ==== Proof.lean ====
/-
  The certificate: a kernel that cuts a 4000 × 6000 × 3 image, padded by reflection to 4096 × 6144 × 3 and scaled by
  1/255, into 384 patches of 256 × 256 × 3, against the plain array program that pads, scales, reshapes and transposes.

  The kernel never builds the padded image. One pipeline writes the 345 patches that lie wholly inside the image,
  straight from the image with pixel column and channel merged; a second writes the last row of 24 patches from a
  strip of the last 256 padded rows; a third writes the remaining 15 patches of the last column from a strip of the
  last 256 padded columns; the two later pipelines write into copies of the array the earlier one left. At the ideal
  instance the scale is the same number on both sides and a change of layout moves no value, so both programs end at
  ONE function of the image (`Cert.Patches.spec`): the image read at the reflected row and column, times the scale.
  No law of arithmetic is used, so the precondition (finite inputs) is never opened.

  Frames: each program terminates, faults nowhere and leaves the image as launched — for the two kernel programs from
  the chained run of their thirteen items (`Hand.frame`), for the reference from its run of eighteen host operations.
  The idealization rewrote nothing, so there is nothing to preserve.
-/
import proofs.«112207_j51110110823149_2_alg».proof.Defs
import proofs.«112207_j51110110823149_2_alg».proof.Proof.Gen.Kernel
import proofs.«112207_j51110110823149_2_alg».proof.Proof.Gen.KernelIdeal
import proofs.«112207_j51110110823149_2_alg».proof.Proof.Gen.ReferenceIdeal
import proofs.«112207_j51110110823149_2_alg».proof.Proof.Gen.Pre_finite_inputs
import proofs.«112207_j51110110823149_2_alg».proof.Proof.KRun
import proofs.«112207_j51110110823149_2_alg».proof.Proof.KIValue
import proofs.«112207_j51110110823149_2_alg».proof.Proof.RefSpec

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run_spec m ρ)

theorem preserves : Cert.preserves_Kernel_KernelIdeal := trivial

/-- Both idealized programs end with the result at the patches of the reflected, scaled image, of images that agree. -/
theorem algebraic : Cert.algebraic_KernelIdeal_ReferenceIdeal := by
  intro m ρ m' ρ' _ hagree
  refine ⟨fun c => Cert.Patches.spec (m ((c.tc : Thread Cert.KernelIdeal.nD Cert.KernelIdeal.τ).loc Cert.KernelIdeal.main_arg0)),
    Cert.KernelIdeal.Hand.run_spec m ρ, ?_⟩
  refine (θ_run Cert.ReferenceIdeal.defs _ _).mono (fun _ h c => ⟨(h c).1.trans ?_, (h c).2⟩)
    (Cert.ReferenceIdeal.Hand.run_spec m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
